-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1536x1536 : Shape := ⟨3, ![16, 1536, 1536]⟩
abbrev S24576x3 : Shape := ⟨2, ![24576, 3]⟩
abbrev S24576x1 : Shape := ⟨2, ![24576, 1]⟩
abbrev S8192 : Shape := ⟨1, ![8192]⟩
abbrev S_ : Shape := ⟨0, ![]⟩

class Facts : Prop where
  bcast_S_S16x1536x1536 : S_.BroadcastsInDim S16x1536x1536 (![] : Fin 0 → Fin S16x1536x1536.rank)
  reducesTo_S16x1536x1536_S_d0_1_2 : S16x1536x1536.ReducesTo [0, 1, 2] S_
  h_S_ : 0 < S_.numel
  bcast_S_S24576x3 : S_.BroadcastsInDim S24576x3 (![] : Fin 0 → Fin S24576x3.rank)
  reducesTo_S24576x3_S_d0_1 : S24576x3.ReducesTo [0, 1] S_

variable [Facts]

def fn {F : FTy → Type} [FloatOps F] (main_arg0 : FVec F S16x1536x1536 .f32) (main_arg1 : FVec F S24576x3 .f32) (main_arg2 : IVec S24576x1 32) (main_arg3 : IVec S8192 32) : IVec S_ 1 :=
  let main_v0 : FVec F S16x1536x1536 .f32 := Host.absf main_arg0
  let main_cst : FVec F S_ .f32 := constant S_ .f32 0x7F800000#32
  let main_v1 : FVec F S16x1536x1536 .f32 := broadcastInDim S16x1536x1536 ![] bcast_S_S16x1536x1536 main_cst
  let main_v2 : IVec S16x1536x1536 1 := cmpf .olt main_v0 main_v1
  let main_c : IVec S_ 1 := constantI S_ 1 1#1
  let main_v3 : IVec S_ 1 := (fun x v => Host.reduce IntOp.andi x v reducesTo_S16x1536x1536_S_d0_1_2 h_S_) main_v2 main_c
  let main_v4 : FVec F S24576x3 .f32 := Host.absf main_arg1
  let main_cst_0 : FVec F S_ .f32 := constant S_ .f32 0x7F800000#32
  let main_v5 : FVec F S24576x3 .f32 := broadcastInDim S24576x3 ![] bcast_S_S24576x3 main_cst_0
  let main_v6 : IVec S24576x3 1 := cmpf .olt main_v4 main_v5
  let main_c_1 : IVec S_ 1 := constantI S_ 1 1#1
  let main_v7 : IVec S_ 1 := (fun x v => Host.reduce IntOp.andi x v reducesTo_S24576x3_S_d0_1 h_S_) main_v6 main_c_1
  let main_v8 : IVec S_ 1 := andi main_v3 main_v7
  main_v8
-- ==== Kernel.lean ====
abbrev S16x1536x1536 : Shape := ⟨3, ![16, 1536, 1536]⟩
abbrev S24576x3 : Shape := ⟨2, ![24576, 3]⟩
abbrev S24576x1 : Shape := ⟨2, ![24576, 1]⟩
abbrev S8192 : Shape := ⟨1, ![8192]⟩
abbrev S16x1536x3 : Shape := ⟨3, ![16, 1536, 3]⟩
abbrev S16x3x1536 : Shape := ⟨3, ![16, 3, 1536]⟩
abbrev S_ : Shape := ⟨0, ![]⟩
abbrev S16x1536 : Shape := ⟨2, ![16, 1536]⟩
abbrev S16x1x1536 : Shape := ⟨3, ![16, 1, 1536]⟩
abbrev S16x1536x1 : Shape := ⟨3, ![16, 1536, 1]⟩
abbrev S16x1x1 : Shape := ⟨3, ![16, 1, 1]⟩
abbrev S1x512x1536 : Shape := ⟨3, ![1, 512, 1536]⟩
abbrev S1x512x3 : Shape := ⟨3, ![1, 512, 3]⟩
abbrev S1x3x1536 : Shape := ⟨3, ![1, 3, 1536]⟩
abbrev S1x1x1536 : Shape := ⟨3, ![1, 1, 1536]⟩
abbrev S1x512x1 : Shape := ⟨3, ![1, 512, 1]⟩
abbrev S1x1x1 : Shape := ⟨3, ![1, 1, 1]⟩
abbrev S1x1 : Shape := ⟨2, ![1, 1]⟩
abbrev S512x3 : Shape := ⟨2, ![512, 3]⟩
abbrev S3x1536 : Shape := ⟨2, ![3, 1536]⟩
abbrev S1x1536 : Shape := ⟨2, ![1, 1536]⟩
abbrev S512x1 : Shape := ⟨2, ![512, 1]⟩
abbrev S512 : Shape := ⟨1, ![512]⟩
abbrev S512x1536 : Shape := ⟨2, ![512, 1536]⟩
abbrev S1 : Shape := ⟨1, ![1]⟩

abbrev nBuf : Space → Nat
  | .hbm => 25
  | .vmem => 18
  | .smem => 0
  | _ => 0

abbrev bufTy : (tb : Table) → Fin (tcTables nBuf tb) → BufTy
  | .hbm, ⟨0, _⟩ => ⟨S16x1536x1536, .f32⟩
  | .hbm, ⟨1, _⟩ => ⟨S24576x3, .f32⟩
  | .hbm, ⟨2, _⟩ => ⟨S24576x1, .i32⟩
  | .hbm, ⟨3, _⟩ => ⟨S8192, .i32⟩
  | .hbm, ⟨4, _⟩ => ⟨S16x1536x3, .f32⟩
  | .hbm, ⟨5, _⟩ => ⟨S16x3x1536, .f32⟩
  | .hbm, ⟨6, _⟩ => ⟨S16x3x1536, .f32⟩
  | .hbm, ⟨7, _⟩ => ⟨S_, .f32⟩
  | .hbm, ⟨8, _⟩ => ⟨S16x1536, .f32⟩
  | .hbm, ⟨9, _⟩ => ⟨S16x1x1536, .f32⟩
  | .hbm, ⟨10, _⟩ => ⟨S24576x1, .f32⟩
  | .hbm, ⟨11, _⟩ => ⟨S16x1536x1, .f32⟩
  | .hbm, ⟨12, _⟩ => ⟨S16x1536, .f32⟩
  | .hbm, ⟨13, _⟩ => ⟨S16x1x1536, .f32⟩
  | .hbm, ⟨14, _⟩ => ⟨S16x1x1, .f32⟩
  | .hbm, ⟨15, _⟩ => ⟨S16x1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S1x512x1536, .f32⟩
  | .local _ .vmem, ⟨1, _⟩ => ⟨S1x512x1536, .f32⟩
  | .local _ .vmem, ⟨2, _⟩ => ⟨S1x512x3, .f32⟩
  | .local _ .vmem, ⟨3, _⟩ => ⟨S1x512x3, .f32⟩
  | .local _ .vmem, ⟨4, _⟩ => ⟨S1x3x1536, .f32⟩
  | .local _ .vmem, ⟨5, _⟩ => ⟨S1x3x1536, .f32⟩
  | .local _ .vmem, ⟨6, _⟩ => ⟨S1x1x1536, .f32⟩
  | .local _ .vmem, ⟨7, _⟩ => ⟨S1x1x1536, .f32⟩
  | .local _ .vmem, ⟨8, _⟩ => ⟨S1x1x1536, .f32⟩
  | .local _ .vmem, ⟨9, _⟩ => ⟨S1x1x1536, .f32⟩
  | .local _ .vmem, ⟨10, _⟩ => ⟨S1x512x1, .f32⟩
  | .local _ .vmem, ⟨11, _⟩ => ⟨S1x512x1, .f32⟩
  | .local _ .vmem, ⟨12, _⟩ => ⟨S1x1x1, .f32⟩
  | .local _ .vmem, ⟨13, _⟩ => ⟨S1x1x1, .f32⟩
  | .local _ .vmem, ⟨14, _⟩ => ⟨S1x1x1, .f32⟩
  | .local _ .vmem, ⟨15, _⟩ => ⟨S1x1x1, .f32⟩
  | .local _ .vmem, ⟨16, _⟩ => ⟨S1x1, .f32⟩
  | .local _ .vmem, ⟨17, _⟩ => ⟨S1x1, .f32⟩
  | _, _ => ⟨S16x1536x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 3], ![false, false]⟩

def k0_cond2 (i : grid0.Coords) : BitVec 1 :=
  let arg1 : BitVec 32 := BitVec.ofNat 32 (i 1).val
  let c2_i32 : BitVec 32 := 2#32
  let v69 : BitVec 1 := Scalar.cmpi .eq arg1 c2_i32
  let v70 : BitVec 32 := Scalar.extui v69
  let c0_i32_32 : BitVec 32 := 0#32
  let v71 : BitVec 1 := Scalar.cmpi .ne v70 c0_i32_32
  v71

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S24576x3_S16x1536x3 : S24576x3.ShapeCasts S16x1536x3
  transposes_S16x1536x3_S16x3x1536_0_2_1 : S16x1536x3.Transposes [0, 2, 1] S16x3x1536
  reducesTo_S16x3x1536_S16x1536_d1 : S16x3x1536.ReducesTo [1] S16x1536
  h_S_ : 0 < S_.numel
  bcast_S16x1536_S16x1x1536_0_2 : S16x1536.BroadcastsInDim S16x1x1536 (![0, 2] : Fin 2 → Fin S16x1x1536.rank)
  shapeCasts_S24576x1_S16x1536x1 : S24576x1.ShapeCasts S16x1536x1
  shapeCasts_S24576x1_S16x1536 : S24576x1.ShapeCasts S16x1536
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x3x1536_S1x3x1536_0_0_0 : ∀ a, (![0, 0, 0] : Fin 3 → Nat) a + S1x3x1536.size a ≤ S1x3x1536.size a
  h_S1x3x1536 : 0 < S1x3x1536.numel
  shapeCasts_S1x3x1536_S3x1536 : S1x3x1536.ShapeCasts S3x1536
  inb_S1x1x1536_S1x1x1536_0_0_0 : ∀ a, (![0, 0, 0] : Fin 3 → Nat) a + S1x1x1536.size a ≤ S1x1x1536.size a
  h_S1x1x1536 : 0 < S1x1x1536.numel
  shapeCasts_S1x1x1536_S1x1536 : S1x1x1536.ShapeCasts S1x1536
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  reduces_S512x3_S512 : S512x3.Reduces [1] S512
  shapeCasts_S512_S512x1 : S512.ShapeCasts S512x1
  slices_S512x3_o0_0_S512x1 : S512x3.Slices ![0, 0] S512x1
  slices_S3x1536_o0_0_S1x1536 : S3x1536.Slices ![0, 0] S1x1536
  broadcasts_S512x1_S512x1536 : S512x1.Broadcasts S512x1536
  broadcasts_S1x1536_S512x1536 : S1x1536.Broadcasts S512x1536
  slices_S512x3_o0_1_S512x1 : S512x3.Slices ![0, 1] S512x1
  slices_S3x1536_o1_0_S1x1536 : S3x1536.Slices ![1, 0] S1x1536
  slices_S512x3_o0_2_S512x1 : S512x3.Slices ![0, 2] S512x1
  slices_S3x1536_o2_0_S1x1536 : S3x1536.Slices ![2, 0] S1x1536
  inb_S1x512x1536_S1x512x1536_0_0_0 : ∀ a, (![0, 0, 0] : Fin 3 → Nat) a + S1x512x1536.size a ≤ S1x512x1536.size a
  h_S1x512x1536 : 0 < S1x512x1536.numel
  shapeCasts_S1x512x1536_S512x1536 : S1x512x1536.ShapeCasts S512x1536
  reduces_S512x1536_S512 : S512x1536.Reduces [1] S512
  reduces_S512x1_S1 : S512x1.Reduces [0] S1
  shapeCasts_S1_S1x1 : S1.ShapeCasts S1x1
  reduces_S1x1536_S1 : S1x1536.Reduces [1] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S16x1x1_S_d0_1_2 : S16x1x1.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1536.size a ≤ S16x1536x1536.size a
  hwx0_0 : ∀ i : grid0.Coords, EltTy.bits .f32 = 32 ∨ (Rect.block (s := S16x1536x1536) S1x512x1536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3.size a ≤ S16x1536x3.size a
  hwx0_1 : ∀ i : grid0.Coords, EltTy.bits .f32 = 32 ∨ (Rect.block (s := S16x1536x3) S1x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x1536.size a ≤ S16x3x1536.size a
  hwx0_2 : ∀ i : grid0.Coords, EltTy.bits .f32 = 32 ∨ (Rect.block (s := S16x3x1536) S1x3x1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1536.size a ≤ S16x1x1536.size a
  hwx0_3 : ∀ i : grid0.Coords, EltTy.bits .f32 = 32 ∨ (Rect.block (s := S16x1x1536) S1x1x1536.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1536.size a ≤ S16x1x1536.size a
  hwx0_4 : ∀ i : grid0.Coords, EltTy.bits .f32 = 32 ∨ (Rect.block (s := S16x1x1536) S1x1x1536.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S16x1536x1.size a
  hwx0_5 : ∀ i : grid0.Coords, EltTy.bits .f32 = 32 ∨ (Rect.block (s := S16x1536x1) S1x512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S16x1x1.size a
  hwx0_6 : ∀ i : grid0.Coords, EltTy.bits .f32 = 32 ∨ (Rect.block (s := S16x1x1) S1x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1.size a ≤ S16x1x1.size a
  hwx0_7 : ∀ i : grid0.Coords, EltTy.bits .f32 = 32 ∨ (Rect.block (s := S16x1x1) S1x1x1.size (cc0_transform_7 i) (hinb0_7 i)).WholeWords (EltTy.packing .f32)

variable [Facts₀]

abbrev win0_0 : Pipeline.Window sig grid0 :=
  Pipeline.Window.ofSpec (Memref.whole main_arg0) S1x512x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x3x1536.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x1536.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1x1536.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S1x1x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S1x1x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S16x1536x1536 : Shape := ⟨3, ![16, 1536, 1536]⟩
abbrev S24576x3 : Shape := ⟨2, ![24576, 3]⟩
abbrev S24576x1 : Shape := ⟨2, ![24576, 1]⟩
abbrev S8192 : Shape := ⟨1, ![8192]⟩
abbrev S16x1536x3 : Shape := ⟨3, ![16, 1536, 3]⟩
abbrev S16x1536 : Shape := ⟨2, ![16, 1536]⟩
abbrev S16x1536x1 : Shape := ⟨3, ![16, 1536, 1]⟩
abbrev S16x1x1536 : Shape := ⟨3, ![16, 1, 1536]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S16x1536x1536, .f32⟩
  | .hbm, ⟨1, _⟩ => ⟨S24576x3, .f32⟩
  | .hbm, ⟨2, _⟩ => ⟨S24576x1, .i32⟩
  | .hbm, ⟨3, _⟩ => ⟨S8192, .i32⟩
  | .hbm, ⟨4, _⟩ => ⟨S16x1536x3, .f32⟩
  | .hbm, ⟨5, _⟩ => ⟨S16x1536, .i32⟩
  | .hbm, ⟨6, _⟩ => ⟨S16x1536, .f32⟩
  | .hbm, ⟨7, _⟩ => ⟨S16x1536x1, .f32⟩
  | .hbm, ⟨8, _⟩ => ⟨S16x1x1536, .f32⟩
  | .hbm, ⟨9, _⟩ => ⟨S16x1536x1536, .f32⟩
  | .hbm, ⟨10, _⟩ => ⟨S16x1536x1536, .f32⟩
  | .hbm, ⟨11, _⟩ => ⟨S16x1536x1536, .f32⟩
  | .hbm, ⟨12, _⟩ => ⟨S16x1536x3, .f32⟩
  | .hbm, ⟨13, _⟩ => ⟨S_, .f32⟩
  | .hbm, ⟨14, _⟩ => ⟨S16x1536, .f32⟩
  | .hbm, ⟨15, _⟩ => ⟨S16x1536x1536, .f32⟩
  | .hbm, ⟨16, _⟩ => ⟨S16x1536x1, .f32⟩
  | .hbm, ⟨17, _⟩ => ⟨S16x1x1536, .f32⟩
  | .hbm, ⟨18, _⟩ => ⟨S16x1536x1536, .f32⟩
  | .hbm, ⟨19, _⟩ => ⟨S16x1536x1536, .f32⟩
  | .hbm, ⟨20, _⟩ => ⟨S16x1536x1536, .f32⟩
  | .hbm, ⟨21, _⟩ => ⟨S_, .f32⟩
  | .hbm, ⟨22, _⟩ => ⟨S16x1536x1536, .f32⟩
  | .hbm, ⟨23, _⟩ => ⟨S16x1536x1536, .f32⟩
  | .hbm, ⟨24, _⟩ => ⟨S16x1536x1536, .f32⟩
  | .hbm, ⟨25, _⟩ => ⟨S_, .f32⟩
  | .hbm, ⟨26, _⟩ => ⟨S16x1536x1536, .f32⟩
  | .hbm, ⟨27, _⟩ => ⟨S16x1536x1536, .f32⟩
  | .hbm, ⟨28, _⟩ => ⟨S_, .f32⟩
  | .hbm, ⟨29, _⟩ => ⟨S16x1536x1536, .f32⟩
  | .hbm, ⟨30, _⟩ => ⟨S16x1536x1536, .i1⟩
  | .hbm, ⟨31, _⟩ => ⟨S_, .f32⟩
  | .hbm, ⟨32, _⟩ => ⟨S_, .f32⟩
  | .hbm, ⟨33, _⟩ => ⟨S16x1536x1536, .f32⟩
  | .hbm, ⟨34, _⟩ => ⟨S16x1536x1536, .f32⟩
  | .hbm, ⟨35, _⟩ => ⟨S_, .f32⟩
  | .hbm, ⟨36, _⟩ => ⟨S16x1536x1536, .f32⟩
  | .hbm, ⟨37, _⟩ => ⟨S16x1536x1536, .i1⟩
  | .hbm, ⟨38, _⟩ => ⟨S16x1536x1536, .f32⟩
  | .hbm, ⟨39, _⟩ => ⟨S_, .f32⟩
  | .hbm, ⟨40, _⟩ => ⟨S_, .f32⟩
  | .hbm, ⟨41, _⟩ => ⟨S16x1536x1536, .f32⟩
  | .hbm, ⟨42, _⟩ => ⟨S16x1536x1536, .f32⟩
  | .hbm, ⟨43, _⟩ => ⟨S16x1536x1536, .f32⟩
  | .hbm, ⟨44, _⟩ => ⟨S16x1536x1536, .f32⟩
  | .hbm, ⟨45, _⟩ => ⟨S16x1536x1536, .f32⟩
  | .hbm, ⟨46, _⟩ => ⟨S16x1536x1536, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S16x1536x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_call1_v0 : Ref sig .tc := ⟨.hbm, 40, rfl⟩
abbrev main_call1_v1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩

abbrev nD : Nat := 1
abbrev τ : Topo := Topo.v7x

variable {F : FTy → Type} [FloatOps F]

class Facts₀ : Prop where
  shapeCasts_S24576x3_S16x1536x3 : S24576x3.ShapeCasts S16x1536x3
  shapeCasts_S24576x1_S16x1536 : S24576x1.ShapeCasts S16x1536
  bcast_S16x1536_S16x1536x1_0_1 : S16x1536.BroadcastsInDim S16x1536x1 (![0, 1] : Fin 2 → Fin S16x1536x1.rank)
  bcast_S16x1536_S16x1x1536_0_2 : S16x1536.BroadcastsInDim S16x1x1536 (![0, 2] : Fin 2 → Fin S16x1x1536.rank)
  bcast_S16x1536x1_S16x1536x1536_0_1_2 : S16x1536x1.BroadcastsInDim S16x1536x1536 (![0, 1, 2] : Fin 3 → Fin S16x1536x1536.rank)
  bcast_S16x1x1536_S16x1536x1536_0_1_2 : S16x1x1536.BroadcastsInDim S16x1536x1536 (![0, 1, 2] : Fin 3 → Fin S16x1536x1536.rank)
  reducesTo_S16x1536x3_S16x1536_d2 : S16x1536x3.ReducesTo [2] S16x1536
  h_S_ : 0 < S_.numel
  bcast_S_S16x1536x1536 : S_.BroadcastsInDim S16x1536x1536 (![] : Fin 0 → Fin S16x1536x1536.rank)
  reducesTo_S16x1536x1536_S_d0_1_2 : S16x1536x1536.ReducesTo [0, 1, 2] S_
  dot_S16x1536x3_S16x1536x3_S16x1536x1536_2_2_1_1_0_0_wf : DotDims.WF S16x1536x3 S16x1536x3 S16x1536x1536 [2] [2] [1] [1] [0] [0]

variable [Facts₀]

def dot_S16x1536x3_S16x1536x3_S16x1536x1536_2_2_1_1_0_0 : DotDims S16x1536x3 S16x1536x3 S16x1536x1536 where
  lhsContracting := [2]
  rhsContracting := [2]
  lhsNonContracting := [1]
  rhsNonContracting := [1]
  lhsBatch := [0]
  rhsBatch := [0]
  wf := dot_S16x1536x3_S16x1536x3_S16x1536x1536_2_2_1_1_0_0_wf

class Facts : Prop extends Facts₀ where

variable [Facts]
-- ==== Proof.KernelPieces.lean ====
/-
  What the kernel body leaves in its two scratch accumulators and, at a protein's last row tile, in its two
  outputs — for each of the three control cases (first tile: reset then accumulate; middle tile: accumulate;
  last tile: accumulate, then copy both accumulators out), as the body's arithmetic applied to the six input
  blocks of the grid point and to the accumulators' previous contents.
-/
import proofs.«135044_j34926674051539_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelPieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
/-- The squared-error accumulator's update: the previous contents `acc` plus the tile's sum. -/
abbrev accSq (x0 : Vec F S1x512x1536 .f32) (x1 : Vec F S1x512x3 .f32) (x2 : Vec F S1x3x1536 .f32) (x3 : Vec F S1x1x1536 .f32)
    (x4 : Vec F S1x1x1536 .f32) (x5 : Vec F S1x512x1 .f32) (acc : Vec F S1x1 .f32) : Vec F S1x1 .f32 :=
  k0_pay1 (k0_pay8 x4) (k0_pay9 x5) (k0_pay10 x1 x3) (k0_pay11 x1 x2) x0 acc

/-- The pair-mask accumulator's update: the previous contents `acc` plus the tile's row-sum times column-sum. -/
abbrev accPm (x4 : Vec F S1x1x1536 .f32) (x5 : Vec F S1x512x1 .f32) (acc : Vec F S1x1 .f32) : Vec F S1x1 .f32 :=
  k0_pay2 (k0_pay8 x4) (k0_pay9 x5) acc

theorem sA0 (c : Dev nD) (i : grid0.Coords) (arg2 : Memref sig .tc .vmem S1x512x1536 .f32) (harg2 : arg2.IsWhole) (arg3 : Memref sig .tc .vmem S1x512x3 .f32) (harg3 : arg3.IsWhole) (arg4 : Memref sig .tc .vmem S1x3x1536 .f32) (harg4 : arg4.IsWhole) (arg5 : Memref sig .tc .vmem S1x1x1536 .f32) (harg5 : arg5.IsWhole) (arg6 : Memref sig .tc .vmem S1x1x1536 .f32) (harg6 : arg6.IsWhole) (arg7 : Memref sig .tc .vmem S1x512x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i)
    (x0 : Vec F S1x512x1536 .f32) (x1 : Vec F S1x512x3 .f32) (x2 : Vec F S1x3x1536 .f32) (x3 : Vec F S1x1x1536 .f32) (x4 : Vec F S1x1x1536 .f32) (x5 : Vec F S1x512x1 .f32) :
    sout0_A_0 c i arg2 harg2 arg3 harg3 arg4 harg4 arg5 harg5 arg6 harg6 arg7 harg7 arg8 harg8 arg9 harg9 arg10 harg10 arg11 harg11 hc0 hc1 x0 x1 x2 x3 x4 x5
      = accSq x0 x1 x2 x3 x4 x5 (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread, harg10.read_unread, harg11.read_unread,
    View.ld_unit_zero (S := S1x1) hz2, View.ld_unit_zero (S := S1x512x1536) hz3, View.ld_unit_zero (S := S1x512x3) hz3, View.ld_unit_zero (S := S1x3x1536) hz3, View.ld_unit_zero (S := S1x1x1536) hz3, View.ld_unit_zero (S := S1x512x1) hz3]

theorem sA1 (c : Dev nD) (i : grid0.Coords) (arg2 : Memref sig .tc .vmem S1x512x1536 .f32) (harg2 : arg2.IsWhole) (arg3 : Memref sig .tc .vmem S1x512x3 .f32) (harg3 : arg3.IsWhole) (arg4 : Memref sig .tc .vmem S1x3x1536 .f32) (harg4 : arg4.IsWhole) (arg5 : Memref sig .tc .vmem S1x1x1536 .f32) (harg5 : arg5.IsWhole) (arg6 : Memref sig .tc .vmem S1x1x1536 .f32) (harg6 : arg6.IsWhole) (arg7 : Memref sig .tc .vmem S1x512x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i)
    (x0 : Vec F S1x512x1536 .f32) (x1 : Vec F S1x512x3 .f32) (x2 : Vec F S1x3x1536 .f32) (x3 : Vec F S1x1x1536 .f32) (x4 : Vec F S1x1x1536 .f32) (x5 : Vec F S1x512x1 .f32) :
    sout0_A_1 c i arg2 harg2 arg3 harg3 arg4 harg4 arg5 harg5 arg6 harg6 arg7 harg7 arg8 harg8 arg9 harg9 arg10 harg10 arg11 harg11 hc0 hc1 x0 x1 x2 x3 x4 x5
      = accPm x4 x5 (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread, harg10.read_unread, harg11.read_unread,
    View.ld_unit_zero (S := S1x1) hz2, View.ld_unit_zero (S := S1x512x1536) hz3, View.ld_unit_zero (S := S1x512x3) hz3, View.ld_unit_zero (S := S1x3x1536) hz3, View.ld_unit_zero (S := S1x1x1536) hz3, View.ld_unit_zero (S := S1x512x1) hz3]

theorem sB0 (c : Dev nD) (i : grid0.Coords) (arg2 : Memref sig .tc .vmem S1x512x1536 .f32) (harg2 : arg2.IsWhole) (arg3 : Memref sig .tc .vmem S1x512x3 .f32) (harg3 : arg3.IsWhole) (arg4 : Memref sig .tc .vmem S1x3x1536 .f32) (harg4 : arg4.IsWhole) (arg5 : Memref sig .tc .vmem S1x1x1536 .f32) (harg5 : arg5.IsWhole) (arg6 : Memref sig .tc .vmem S1x1x1536 .f32) (harg6 : arg6.IsWhole) (arg7 : Memref sig .tc .vmem S1x512x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i)
    (x0 : Vec F S1x512x1536 .f32) (x1 : Vec F S1x512x3 .f32) (x2 : Vec F S1x3x1536 .f32) (x3 : Vec F S1x1x1536 .f32) (x4 : Vec F S1x1x1536 .f32) (x5 : Vec F S1x512x1 .f32) (xs0 xs1 : Vec F S1x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1
      = accSq x0 x1 x2 x3 x4 x5 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg10.read_unread, harg11.read_unread,
    View.ld_unit_zero (S := S1x1) hz2, View.ld_unit_zero (S := S1x512x1536) hz3, View.ld_unit_zero (S := S1x512x3) hz3, View.ld_unit_zero (S := S1x3x1536) hz3, View.ld_unit_zero (S := S1x1x1536) hz3, View.ld_unit_zero (S := S1x512x1) hz3]

theorem sB1 (c : Dev nD) (i : grid0.Coords) (arg2 : Memref sig .tc .vmem S1x512x1536 .f32) (harg2 : arg2.IsWhole) (arg3 : Memref sig .tc .vmem S1x512x3 .f32) (harg3 : arg3.IsWhole) (arg4 : Memref sig .tc .vmem S1x3x1536 .f32) (harg4 : arg4.IsWhole) (arg5 : Memref sig .tc .vmem S1x1x1536 .f32) (harg5 : arg5.IsWhole) (arg6 : Memref sig .tc .vmem S1x1x1536 .f32) (harg6 : arg6.IsWhole) (arg7 : Memref sig .tc .vmem S1x512x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i)
    (x0 : Vec F S1x512x1536 .f32) (x1 : Vec F S1x512x3 .f32) (x2 : Vec F S1x3x1536 .f32) (x3 : Vec F S1x1x1536 .f32) (x4 : Vec F S1x1x1536 .f32) (x5 : Vec F S1x512x1 .f32) (xs0 xs1 : Vec F S1x1 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1
      = accPm x4 x5 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg10.read_unread, harg11.read_unread,
    View.ld_unit_zero (S := S1x1) hz2, View.ld_unit_zero (S := S1x512x1536) hz3, View.ld_unit_zero (S := S1x512x3) hz3, View.ld_unit_zero (S := S1x3x1536) hz3, View.ld_unit_zero (S := S1x1x1536) hz3, View.ld_unit_zero (S := S1x512x1) hz3]

theorem sC0 (c : Dev nD) (i : grid0.Coords) (arg2 : Memref sig .tc .vmem S1x512x1536 .f32) (harg2 : arg2.IsWhole) (arg3 : Memref sig .tc .vmem S1x512x3 .f32) (harg3 : arg3.IsWhole) (arg4 : Memref sig .tc .vmem S1x3x1536 .f32) (harg4 : arg4.IsWhole) (arg5 : Memref sig .tc .vmem S1x1x1536 .f32) (harg5 : arg5.IsWhole) (arg6 : Memref sig .tc .vmem S1x1x1536 .f32) (harg6 : arg6.IsWhole) (arg7 : Memref sig .tc .vmem S1x512x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i)
    (x0 : Vec F S1x512x1536 .f32) (x1 : Vec F S1x512x3 .f32) (x2 : Vec F S1x3x1536 .f32) (x3 : Vec F S1x1x1536 .f32) (x4 : Vec F S1x1x1536 .f32) (x5 : Vec F S1x512x1 .f32) (xs0 xs1 : Vec F S1x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1
      = accSq x0 x1 x2 x3 x4 x5 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg10.read_unread, harg11.read_unread,
    View.ld_unit_zero (S := S1x1) hz2, View.ld_unit_zero (S := S1x512x1536) hz3, View.ld_unit_zero (S := S1x512x3) hz3, View.ld_unit_zero (S := S1x3x1536) hz3, View.ld_unit_zero (S := S1x1x1536) hz3, View.ld_unit_zero (S := S1x512x1) hz3]

theorem sC1 (c : Dev nD) (i : grid0.Coords) (arg2 : Memref sig .tc .vmem S1x512x1536 .f32) (harg2 : arg2.IsWhole) (arg3 : Memref sig .tc .vmem S1x512x3 .f32) (harg3 : arg3.IsWhole) (arg4 : Memref sig .tc .vmem S1x3x1536 .f32) (harg4 : arg4.IsWhole) (arg5 : Memref sig .tc .vmem S1x1x1536 .f32) (harg5 : arg5.IsWhole) (arg6 : Memref sig .tc .vmem S1x1x1536 .f32) (harg6 : arg6.IsWhole) (arg7 : Memref sig .tc .vmem S1x512x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i)
    (x0 : Vec F S1x512x1536 .f32) (x1 : Vec F S1x512x3 .f32) (x2 : Vec F S1x3x1536 .f32) (x3 : Vec F S1x1x1536 .f32) (x4 : Vec F S1x1x1536 .f32) (x5 : Vec F S1x512x1 .f32) (xs0 xs1 : Vec F S1x1 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1
      = accPm x4 x5 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg10.read_unread, harg11.read_unread,
    View.ld_unit_zero (S := S1x1) hz2, View.ld_unit_zero (S := S1x512x1536) hz3, View.ld_unit_zero (S := S1x512x3) hz3, View.ld_unit_zero (S := S1x3x1536) hz3, View.ld_unit_zero (S := S1x1x1536) hz3, View.ld_unit_zero (S := S1x512x1) hz3]

theorem oC6 (c : Dev nD) (i : grid0.Coords) (arg2 : Memref sig .tc .vmem S1x512x1536 .f32) (harg2 : arg2.IsWhole) (arg3 : Memref sig .tc .vmem S1x512x3 .f32) (harg3 : arg3.IsWhole) (arg4 : Memref sig .tc .vmem S1x3x1536 .f32) (harg4 : arg4.IsWhole) (arg5 : Memref sig .tc .vmem S1x1x1536 .f32) (harg5 : arg5.IsWhole) (arg6 : Memref sig .tc .vmem S1x1x1536 .f32) (harg6 : arg6.IsWhole) (arg7 : Memref sig .tc .vmem S1x512x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i)
    (x0 : Vec F S1x512x1536 .f32) (x1 : Vec F S1x512x3 .f32) (x2 : Vec F S1x3x1536 .f32) (x3 : Vec F S1x1x1536 .f32) (x4 : Vec F S1x1x1536 .f32) (x5 : Vec F S1x512x1 .f32) (xs0 xs1 : Vec F S1x1 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1
      = k0_pay3 (accSq x0 x1 x2 x3 x4 x5 xs0) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz3, View.readCov_unit_zero (S := S1x1) _ hz2]
  simp only [View.readAt_eq_ld, harg2.read_unread, harg3.read_unread, harg4.read_unread, harg5.read_unread, harg6.read_unread, harg7.read_unread, harg10.read_unread, harg11.read_unread,
    View.ld_unit_zero (S := S1x1) hz2, View.ld_unit_zero (S := S1x512x1536) hz3, View.ld_unit_zero (S := S1x512x3) hz3, View.ld_unit_zero (S := S1x3x1536) hz3, View.ld_unit_zero (S := S1x1x1536) hz3, View.ld_unit_zero (S := S1x512x1) hz3]

theorem oC7 (c : Dev nD) (i : grid0.Coords) (arg2 : Memref sig .tc .vmem S1x512x1536 .f32) (harg2 : arg2.IsWhole) (arg3 : Memref sig .tc .vmem S1x512x3 .f32) (harg3 : arg3.IsWhole) (arg4 : Memref sig .tc .vmem S1x3x1536 .f32) (harg4 : arg4.IsWhole) (arg5 : Memref sig .tc .vmem S1x1x1536 .f32) (harg5 : arg5.IsWhole) (arg6 : Memref sig .tc .vmem S1x1x1536 .f32) (harg6 : arg6.IsWhole) (arg7 : Memref sig .tc .vmem S1x512x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i)
    (x0 : Vec F S1x512x1536 .f32) (x1 : Vec F S1x512x3 .f32) (x2 : Vec F S1x3x1536 .f32) (x3 : Vec F S1x1x1536 .f32) (x4 : Vec F S1x1x1536 .f32) (x5 : Vec F S1x512x1 .f32) (xs0 xs1 : Vec F S1x1 .f32) :
    out0_C_7 c i arg2 harg2 arg3 harg3 arg4 harg4 arg5 harg5 arg6 harg6 arg7 harg7 arg8 harg8 arg9 harg9 arg10 harg10 arg11 harg11 hc0 hc1 x0 x1 x2 x3 x4 x5 xs0 xs1
      = k0_pay4 (accPm x4 x5 xs1) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz3, View.readCov_unit_zero (S := S1x1) _ hz2]
  simp only [View.readAt_eq_ld, harg2.read_unread, harg3.read_unread, harg4.read_unread, harg5.read_unread, harg6.read_unread, harg7.read_unread, harg10.read_unread, harg11.read_unread,
    View.ld_unit_zero (S := S1x1) hz2, View.ld_unit_zero (S := S1x512x1536) hz3, View.ld_unit_zero (S := S1x512x3) hz3, View.ld_unit_zero (S := S1x3x1536) hz3, View.ld_unit_zero (S := S1x1x1536) hz3, View.ld_unit_zero (S := S1x512x1) hz3]

end Cert.KernelPieces

end
-- ==== Proof.Spec.lean ====
/-
  The masked pairwise-distance loss, as one function of the argument arrays over the extended reals.

  A batch of 16 proteins, each with 1536 atoms in 3 coordinates; `inputs` is a predicted distance map per
  protein, `target` the flat list of atom coordinates, `mask` the flat list of integer atom masks.
  For protein `b` and atoms `i`, `j`:
    d²(i, j)  = (|t_i|² + |t_j|²) − 2 · ⟨t_i, t_j⟩,      dist = √(max d² 0),
    pm(i, j)  = m_i · m_j,
    err(i, j) = (pm · (inputs − dist))²,
  and the loss is (Σ err / N) · (Σ pm / N) with N = 16 · 1536 · 1536 the number of pairs.
-/
import Idealize.ShloMosaic.PureOps.Ideal
import Idealize.ShloMosaic.Lib.ValueIdx

noncomputable section

open scoped BigOperators

namespace Cert.Spec

open Idealize.ShloMosaic Idealize.ShloMosaic.ValueIdx

abbrev SInp : Shape := ⟨3, ![16, 1536, 1536]⟩
abbrev STgt : Shape := ⟨2, ![24576, 3]⟩
abbrev SMsk : Shape := ⟨2, ![24576, 1]⟩

/-- The row of atom `a` of protein `b` in the flat arrays: proteins are consecutive runs of 1536 atoms. -/
def atom (b : Fin 16) (a : Fin 1536) : Fin 24576 :=
  ⟨b.val * 1536 + a.val, by have := b.isLt; have := a.isLt; omega⟩

/-- Row `r` of the `k`-th of the three row tiles of 512 atoms. -/
def tileRow (k : Fin 3) (r : Fin 512) : Fin 1536 :=
  ⟨k.val * 512 + r.val, by have := k.isLt; have := r.isLt; omega⟩

/-- The float zero, two, one and the pair count 16·1536·1536 as the programs spell them. -/
def zero : EReal := Ideal.ofBits .f32 0x00000000#32
def two : EReal := Ideal.ofBits .f32 0x40000000#32
def count : EReal := Ideal.ofBits .f32 0x4C100000#32

section

variable (x0 : SInp.Idx → EReal) (x1 : STgt.Idx → EReal) (x2 : SMsk.Idx → BitVec 32)

/-- Coordinate `d` of atom `a` of protein `b`. -/
def coord (b : Fin 16) (a : Fin 1536) (d : Fin 3) : EReal := x1 (ix2 (atom b a) d)

/-- The mask of atom `a` of protein `b`, the integer read as a real. -/
def msk (b : Fin 16) (a : Fin 1536) : EReal := (((x2 (ix2 (atom b a) (0 : Fin 1))).toInt : ℝ) : EReal)

/-- The squared norm of an atom's coordinates. -/
def sqn (b : Fin 16) (a : Fin 1536) : EReal := ∑ d : Fin 3, coord x1 b a d * coord x1 b a d

/-- The inner product of two atoms' coordinates. -/
def gram (b : Fin 16) (i j : Fin 1536) : EReal := ∑ d : Fin 3, coord x1 b i d * coord x1 b j d

/-- The squared distance by the polarization identity. -/
def d2 (b : Fin 16) (i j : Fin 1536) : EReal := (sqn x1 b i + sqn x1 b j) - two * gram x1 b i j

/-- The distance: the square root of the squared distance clamped at zero. -/
def dist (b : Fin 16) (i j : Fin 1536) : EReal := Ideal.sqrt (max (d2 x1 b i j) zero)

/-- The pair mask. -/
def pm (b : Fin 16) (i j : Fin 1536) : EReal := msk x2 b i * msk x2 b j

/-- The masked squared error of one pair, the mask applied to the difference. -/
def err (b : Fin 16) (i j : Fin 1536) : EReal :=
  (pm x2 b i j * (x0 (ix3 b i j) - dist x1 b i j)) * (pm x2 b i j * (x0 (ix3 b i j) - dist x1 b i j))

/-- The masked squared error of one pair, the mask applied to each term of the difference. -/
def errR (b : Fin 16) (i j : Fin 1536) : EReal :=
  (pm x2 b i j * x0 (ix3 b i j) - pm x2 b i j * dist x1 b i j)
    * (pm x2 b i j * x0 (ix3 b i j) - pm x2 b i j * dist x1 b i j)

/-- The loss: the mean squared error times the mean pair mask. -/
def loss : EReal :=
  Ideal.div (∑ b : Fin 16, ∑ i : Fin 1536, ∑ j : Fin 1536, err x0 x1 x2 b i j) count
    * Ideal.div (∑ b : Fin 16, ∑ i : Fin 1536, ∑ j : Fin 1536, pm x2 b i j) count

/-- The loss with the mask distributed and the second mean taken after the product. -/
def lossR : EReal :=
  Ideal.div (Ideal.div (∑ b : Fin 16, ∑ i : Fin 1536, ∑ j : Fin 1536, errR x0 x1 x2 b i j) count
    * (∑ b : Fin 16, ∑ i : Fin 1536, ∑ j : Fin 1536, pm x2 b i j)) count

/-- The sum of masked squared errors over row tile `k` of protein `b`: 512 row atoms against all 1536 atoms. -/
def tileSqS (b : Fin 16) (k : Fin 3) : EReal :=
  ∑ r : Fin 512, ∑ q : Fin 1536, err x0 x1 x2 b (tileRow k r) q

/-- The sum of pair masks over row tile `k` of protein `b`, factored: the tile's mask sum times the protein's. -/
def tilePmS (b : Fin 16) (k : Fin 3) : EReal :=
  (∑ r : Fin 512, msk x2 b (tileRow k r)) * (∑ q : Fin 1536, msk x2 b q)

/-- Protein `b`'s squared-error total, accumulated from zero over its three row tiles in order. -/
def accSqS (b : Fin 16) : EReal := ((zero + tileSqS x0 x1 x2 b 0) + tileSqS x0 x1 x2 b 1) + tileSqS x0 x1 x2 b 2

/-- Protein `b`'s pair-mask total, accumulated from zero over its three row tiles in order. -/
def accPmS (b : Fin 16) : EReal := ((zero + tilePmS x2 b 0) + tilePmS x2 b 1) + tilePmS x2 b 2

/-- The loss as accumulated tile by tile and protein by protein, each total summed from zero. -/
def lossK : EReal :=
  Ideal.div (zero + ∑ b : Fin 16, accSqS x0 x1 x2 b) count * Ideal.div (zero + ∑ b : Fin 16, accPmS x2 b) count

end

end Cert.Spec

end
-- ==== Proof.LibColumn.lean ====
/-
  Two layout operations of a keepdims row reduction, read at an index: a vector of length a viewed as
  an a-by-1 column reads its own entry, and an a-by-1 column broadcast along the second axis to
  a-by-b reads the column's entry of the same row.
-/
import Idealize.ShloMosaic.Lib.ValueIdx
import Idealize.ShloMosaic.Lib.Pipeline.Value

namespace Cert.Splat.Column

open Idealize.ShloMosaic Idealize.ShloMosaic.ValueIdx

variable {α : Type}

/-- A length-a vector cast to an a-by-1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a-by-1 column broadcast to a-by-b reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Splat.Column
-- ==== Proof.TileValue.lean ====
/-
  One row tile's contribution to the two accumulators, index by index over the extended reals.

  A grid point sees six blocks: `x0` a 512 × 1536 tile of the predicted distance map, `x1` the tile's 512 atoms'
  coordinates, `x2` all 1536 atoms' coordinates transposed, `x3` all atoms' squared norms, `x4` all atoms' masks as a
  row, `x5` the tile's masks as a column. The squared-error accumulator gains
      Σ_r Σ_c (m_r m_c · (x0 r c − √(max ((|t_r|² + |t_c|²) − 2⟨t_r, t_c⟩) 0)))²
  and the pair-mask accumulator gains (Σ_r m_r) · (Σ_c m_c).
-/
import proofs.«135044_j34926674051539_2_alg».proof.Proof.Gen.KernelIdeal.Skeleton
import proofs.«135044_j34926674051539_2_alg».proof.Proof.Spec
import proofs.«135044_j34926674051539_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.TileValue

open Idealize.ShloMosaic Idealize.ShloMosaic.ValueIdx Cert.KernelIdeal Cert.KernelIdeal.Gen Cert.Splat.Column

/-! ## Sums along one axis of a small matrix -/

/-- Summing a 512 × 1536 matrix along its rows: entry `r` is the sum of row `r`. -/
theorem rowSum_apply (v : FVec Ideal S512x1536 .f32) (h : S512x1536.Reduces [1] S512) (hφ : FKind.Formats .f32)
    (hacc : (0x00000000#32 : BitVec 32) = FKind.add.neutral .f32 hφ) (r : Fin 512) :
    multiReduction .add [1] S512 v 0x00000000#32 h hφ hacc (ix1 r) = ∑ c : Fin 1536, v (ix2 r c) := by
  refine (Ideal.multiReduction_add_single v 0x00000000#32 h hφ hacc (ix1 r)).trans ?_
  refine Finset.sum_congr rfl fun c _ => congrArg v (funext fun a => Fin.ext ?_)
  match a with
  | ⟨0, _⟩ => rfl
  | ⟨1, _⟩ => rfl

/-- Summing a 512 × 3 matrix along its rows. -/
theorem rowSum3_apply (v : FVec Ideal S512x3 .f32) (h : S512x3.Reduces [1] S512) (hφ : FKind.Formats .f32)
    (hacc : (0x00000000#32 : BitVec 32) = FKind.add.neutral .f32 hφ) (r : Fin 512) :
    multiReduction .add [1] S512 v 0x00000000#32 h hφ hacc (ix1 r) = ∑ d : Fin 3, v (ix2 r d) := by
  refine (Ideal.multiReduction_add_single v 0x00000000#32 h hφ hacc (ix1 r)).trans ?_
  refine Finset.sum_congr rfl fun c _ => congrArg v (funext fun a => Fin.ext ?_)
  match a with
  | ⟨0, _⟩ => rfl
  | ⟨1, _⟩ => rfl

/-- Summing a 512 × 1 column down to its one entry. -/
theorem colSum_apply (v : FVec Ideal S512x1 .f32) (h : S512x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ r : Fin 512, v (ix2 r u) := by
  refine (Ideal.multiReduction_add_single v 0x00000000#32 h hφ hacc (ix1 u)).trans ?_
  refine Finset.sum_congr rfl fun c _ => congrArg v (funext fun a => Fin.ext ?_)
  match a with
  | ⟨0, _⟩ => rfl
  | ⟨1, _⟩ => rfl

/-- Summing a 1 × 1536 row to its one entry. -/
theorem laneSum_apply (v : FVec Ideal S1x1536 .f32) (h : S1x1536.Reduces [1] S1) (hφ : FKind.Formats .f32)
    (hacc : (0x00000000#32 : BitVec 32) = FKind.add.neutral .f32 hφ) (u : Fin 1) :
    multiReduction .add [1] S1 v 0x00000000#32 h hφ hacc (ix1 u) = ∑ c : Fin 1536, v (ix2 u c) := by
  refine (Ideal.multiReduction_add_single v 0x00000000#32 h hφ hacc (ix1 u)).trans ?_
  refine Finset.sum_congr rfl fun c _ => congrArg v (funext fun a => Fin.ext ?_)
  match a with
  | ⟨0, _⟩ => rfl
  | ⟨1, _⟩ => rfl

/-! ## The blocks with their leading unit axis dropped -/

theorem pay7_apply (x1 : Vec Ideal S1x512x3 .f32) (r : Fin 512) (d : Fin 3) :
    k0_pay7 x1 (ix2 r d) = x1 (ix3 (0 : Fin 1) r d) :=
  shapeCast_1ab_ab_apply x1 _ r d

theorem pay8_apply (x4 : Vec Ideal S1x1x1536 .f32) (u : Fin 1) (c : Fin 1536) :
    k0_pay8 x4 (ix2 u c) = x4 (ix3 (0 : Fin 1) u c) :=
  shapeCast_1ab_ab_apply x4 _ u c

theorem pay9_apply (x5 : Vec Ideal S1x512x1 .f32) (r : Fin 512) (u : Fin 1) :
    k0_pay9 x5 (ix2 r u) = x5 (ix3 (0 : Fin 1) r u) :=
  shapeCast_1ab_ab_apply x5 _ r u

/-! ## The squared-norm sum and the scaled inner product of a row atom and a column atom -/

/-- |t_r|² + |t_c|²: the row atom's squared norm, summed here, plus the column atom's, precomputed. -/
theorem pay10_apply (x1 : Vec Ideal S1x512x3 .f32) (x3 : Vec Ideal S1x1x1536 .f32) (r : Fin 512) (c : Fin 1536) :
    k0_pay10 x1 x3 (ix2 r c)
      = (∑ d : Fin 3, x1 (ix3 (0 : Fin 1) r d) * x1 (ix3 (0 : Fin 1) r d)) + x3 (ix3 (0 : Fin 1) (0 : Fin 1) c) := by
  unfold k0_pay10
  show broadcastTo S512x1536 _ _ (ix2 r c) + broadcastTo S512x1536 _ _ (ix2 r c) = _
  refine congrArg₂ (· + ·) ?_ ?_
  · refine (broadcastTo_a1_ab_apply _ _ r c).trans ?_
    refine (shapeCast_a_a1_apply _ _ r (0 : Fin 1)).trans ?_
    refine (rowSum3_apply _ _ _ _ r).trans ?_
    refine Finset.sum_congr rfl fun d _ => ?_
    show k0_pay7 x1 (ix2 r d) * k0_pay7 x1 (ix2 r d) = _
    rw [pay7_apply]
  · refine (broadcastTo_1b_ab_apply _ _ r c).trans ?_
    exact shapeCast_1ab_ab_apply x3 _ (0 : Fin 1) c

/-- 2 · ⟨t_r, t_c⟩, the inner product spelt as its three products added left to right. -/
theorem pay11_apply (x1 : Vec Ideal S1x512x3 .f32) (x2 : Vec Ideal S1x3x1536 .f32) (r : Fin 512) (c : Fin 1536) :
    k0_pay11 x1 x2 (ix2 r c)
      = Spec.two * ((x1 (ix3 (0 : Fin 1) r (0 : Fin 3)) * x2 (ix3 (0 : Fin 1) (0 : Fin 3) c)
          + x1 (ix3 (0 : Fin 1) r (1 : Fin 3)) * x2 (ix3 (0 : Fin 1) (1 : Fin 3) c))
          + x1 (ix3 (0 : Fin 1) r (2 : Fin 3)) * x2 (ix3 (0 : Fin 1) (2 : Fin 3) c)) := by
  unfold k0_pay11
  show Spec.two * ((broadcastTo S512x1536 _ _ (ix2 r c) * broadcastTo S512x1536 _ _ (ix2 r c)
      + broadcastTo S512x1536 _ _ (ix2 r c) * broadcastTo S512x1536 _ _ (ix2 r c))
      + broadcastTo S512x1536 _ _ (ix2 r c) * broadcastTo S512x1536 _ _ (ix2 r c)) = _
  have hcol : ∀ (d : Fin 3) (h : S512x3.Slices ![0, d.val] S512x1),
      broadcastTo S512x1536 (extractStridedSlice S512x1 ![0, d.val] (k0_pay7 x1) h) broadcasts_S512x1_S512x1536 (ix2 r c)
        = x1 (ix3 (0 : Fin 1) r d) := fun d h =>
    (broadcastTo_a1_ab_apply _ _ r c).trans
      ((slice2_axis1_apply d.val (k0_pay7 x1) h r (0 : Fin 1) d (by simp)).trans (pay7_apply x1 r d))
  have hrow : ∀ (d : Fin 3) (h : S3x1536.Slices ![d.val, 0] S1x1536),
      broadcastTo S512x1536 (extractStridedSlice S1x1536 ![d.val, 0] (shapeCast S3x1536 x2 shapeCasts_S1x3x1536_S3x1536) h)
          broadcasts_S1x1536_S512x1536 (ix2 r c)
        = x2 (ix3 (0 : Fin 1) d c) := fun d h =>
    (broadcastTo_1b_ab_apply _ _ r c).trans
      ((slice2_axis0_apply d.val _ h (0 : Fin 1) c d (by simp)).trans (shapeCast_1ab_ab_apply x2 _ d c))
  exact congrArg (Spec.two * ·) (congrArg₂ (· + ·) (congrArg₂ (· + ·)
    (congrArg₂ (· * ·) (hcol 0 _) (hrow 0 _)) (congrArg₂ (· * ·) (hcol 1 _) (hrow 1 _)))
    (congrArg₂ (· * ·) (hcol 2 _) (hrow 2 _)))

/-! ## The tile's two contributions -/

section
variable (x0 : Vec Ideal S1x512x1536 .f32) (x1 : Vec Ideal S1x512x3 .f32) (x2 : Vec Ideal S1x3x1536 .f32)
  (x3 x4 : Vec Ideal S1x1x1536 .f32) (x5 : Vec Ideal S1x512x1 .f32)

/-- The masked squared error of row atom `r` of the tile against column atom `c`. -/
def tErr (r : Fin 512) (c : Fin 1536) : EReal :=
  (x5 (ix3 (0 : Fin 1) r (0 : Fin 1)) * x4 (ix3 (0 : Fin 1) (0 : Fin 1) c)
      * (x0 (ix3 (0 : Fin 1) r c) - Ideal.sqrt (max
          (((∑ d : Fin 3, x1 (ix3 (0 : Fin 1) r d) * x1 (ix3 (0 : Fin 1) r d)) + x3 (ix3 (0 : Fin 1) (0 : Fin 1) c))
            - Spec.two * ((x1 (ix3 (0 : Fin 1) r (0 : Fin 3)) * x2 (ix3 (0 : Fin 1) (0 : Fin 3) c)
                + x1 (ix3 (0 : Fin 1) r (1 : Fin 3)) * x2 (ix3 (0 : Fin 1) (1 : Fin 3) c))
                + x1 (ix3 (0 : Fin 1) r (2 : Fin 3)) * x2 (ix3 (0 : Fin 1) (2 : Fin 3) c)))
          Spec.zero)))
    * (x5 (ix3 (0 : Fin 1) r (0 : Fin 1)) * x4 (ix3 (0 : Fin 1) (0 : Fin 1) c)
      * (x0 (ix3 (0 : Fin 1) r c) - Ideal.sqrt (max
          (((∑ d : Fin 3, x1 (ix3 (0 : Fin 1) r d) * x1 (ix3 (0 : Fin 1) r d)) + x3 (ix3 (0 : Fin 1) (0 : Fin 1) c))
            - Spec.two * ((x1 (ix3 (0 : Fin 1) r (0 : Fin 3)) * x2 (ix3 (0 : Fin 1) (0 : Fin 3) c)
                + x1 (ix3 (0 : Fin 1) r (1 : Fin 3)) * x2 (ix3 (0 : Fin 1) (1 : Fin 3) c))
                + x1 (ix3 (0 : Fin 1) r (2 : Fin 3)) * x2 (ix3 (0 : Fin 1) (2 : Fin 3) c)))
          Spec.zero)))

/-- The tile's sum of masked squared errors. -/
def tileSq : EReal := ∑ r : Fin 512, ∑ c : Fin 1536, tErr x0 x1 x2 x3 x4 x5 r c

/-- The tile's sum of pair masks: the masks are an outer product, so the sum factors. -/
def tilePm : EReal := (∑ r : Fin 512, x5 (ix3 (0 : Fin 1) r (0 : Fin 1))) * (∑ c : Fin 1536, x4 (ix3 (0 : Fin 1) (0 : Fin 1) c))

/-- The squared-error accumulator after the tile: what it held plus the tile's sum. -/
theorem accSq_apply (acc : Vec Ideal S1x1 .f32) (u v : Fin 1) :
    k0_pay1 (k0_pay8 x4) (k0_pay9 x5) (k0_pay10 x1 x3) (k0_pay11 x1 x2) x0 acc (ix2 u v)
      = acc (ix2 u v) + tileSq x0 x1 x2 x3 x4 x5 := by
  unfold k0_pay1
  refine (congrFun (shapeCast_self _ _) (ix2 u v)).trans ?_
  show acc (ix2 u v) + shapeCast S1x1 _ _ (ix2 u v) = _
  refine congrArg (acc (ix2 u v) + ·) ?_
  refine (shapeCast_a_1a_apply _ _ u v).trans ?_
  refine (colSum_apply _ _ _ _ v).trans ?_
  refine Finset.sum_congr rfl fun r _ => ?_
  refine (shapeCast_a_a1_apply _ _ r v).trans ?_
  refine (rowSum_apply _ _ _ _ r).trans ?_
  refine Finset.sum_congr rfl fun c _ => ?_
  show (broadcastTo S512x1536 (k0_pay9 x5) _ (ix2 r c) * broadcastTo S512x1536 (k0_pay8 x4) _ (ix2 r c)
      * (shapeCast S512x1536 x0 _ (ix2 r c) - Ideal.sqrt (max (k0_pay10 x1 x3 (ix2 r c) - k0_pay11 x1 x2 (ix2 r c)) Spec.zero)))
    * (broadcastTo S512x1536 (k0_pay9 x5) _ (ix2 r c) * broadcastTo S512x1536 (k0_pay8 x4) _ (ix2 r c)
      * (shapeCast S512x1536 x0 _ (ix2 r c) - Ideal.sqrt (max (k0_pay10 x1 x3 (ix2 r c) - k0_pay11 x1 x2 (ix2 r c)) Spec.zero))) = _
  have e1 : broadcastTo S512x1536 (k0_pay9 x5) broadcasts_S512x1_S512x1536 (ix2 r c) = x5 (ix3 (0 : Fin 1) r (0 : Fin 1)) :=
    (broadcastTo_a1_ab_apply _ _ r c).trans (pay9_apply x5 r 0)
  have e2 : broadcastTo S512x1536 (k0_pay8 x4) broadcasts_S1x1536_S512x1536 (ix2 r c) = x4 (ix3 (0 : Fin 1) (0 : Fin 1) c) :=
    (broadcastTo_1b_ab_apply _ _ r c).trans (pay8_apply x4 0 c)
  have e3 : shapeCast S512x1536 x0 shapeCasts_S1x512x1536_S512x1536 (ix2 r c) = x0 (ix3 (0 : Fin 1) r c) :=
    shapeCast_1ab_ab_apply x0 _ r c
  rw [e1, e2, e3, pay10_apply, pay11_apply]
  rfl

/-- The pair-mask accumulator after the tile: what it held plus the row-sum times the column-sum. -/
theorem accPm_apply (acc : Vec Ideal S1x1 .f32) (u v : Fin 1) :
    k0_pay2 (k0_pay8 x4) (k0_pay9 x5) acc (ix2 u v) = acc (ix2 u v) + tilePm x4 x5 := by
  obtain rfl : u = 0 := Subsingleton.elim _ _
  obtain rfl : v = 0 := Subsingleton.elim _ _
  unfold k0_pay2
  refine (congrFun (shapeCast_self _ _) (ix2 (0 : Fin 1) (0 : Fin 1))).trans ?_
  show acc (ix2 (0 : Fin 1) (0 : Fin 1))
      + (shapeCast S1x1 _ _ (ix2 (0 : Fin 1) (0 : Fin 1)) * shapeCast S1x1 _ _ (ix2 (0 : Fin 1) (0 : Fin 1))) = _
  refine congrArg (acc (ix2 (0 : Fin 1) (0 : Fin 1)) + ·) (congrArg₂ (· * ·) ?_ ?_)
  · refine (shapeCast_a_1a_apply _ _ (0 : Fin 1) (0 : Fin 1)).trans ?_
    refine (colSum_apply _ _ _ _ (0 : Fin 1)).trans ?_
    exact Finset.sum_congr rfl fun r _ => pay9_apply x5 r (0 : Fin 1)
  · refine (shapeCast_a_1a_apply _ _ (0 : Fin 1) (0 : Fin 1)).trans ?_
    refine (laneSum_apply _ _ _ _ (0 : Fin 1)).trans ?_
    exact Finset.sum_congr rfl fun c _ => pay8_apply x4 (0 : Fin 1) c

end

end Cert.TileValue

end
-- ==== Proof.KernelBlocks.lean ====
/-
  What each input window's block holds at a grid point, index by index, in terms of the kernel's argument arrays.

  Grid point `t` of the 16 × 3 grid is protein `t / 3`, row tile `t % 3`. The host code before the call lays the
  arguments out: the coordinates per protein, their transpose, each atom's squared norm as a row, the masks converted to
  floats as a column per tile and as a row per protein. Read at an index, each block entry is a coordinate, a squared
  norm or a mask of the specification.
-/
import proofs.«135044_j34926674051539_2_alg».proof.Proof.Gen.KernelIdeal.Frame
import proofs.«135044_j34926674051539_2_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelBlocks

open Cert.KernelIdeal Cert.KernelIdeal.Gen

open Cert.Spec (atom tileRow)

variable (m : (ℓ : Loc nD τ sig) → Buf (Elt Ideal) ℓ)

/-- The three argument arrays the kernel reads, on core `c`: the distance maps, the coordinates, the masks. -/
abbrev arg0 (c : Dev nD) : Spec.SInp.Idx → EReal := m ((c : Thread nD τ).loc main_arg0)
abbrev arg1 (c : Dev nD) : Spec.STgt.Idx → EReal := m ((c : Thread nD τ).loc main_arg1)
abbrev arg2 (c : Dev nD) : Spec.SMsk.Idx → BitVec 32 := m ((c : Thread nD τ).loc main_arg2)

/-! ## The arrays the host code writes before the call -/

theorem V_v0 (c : Dev nD) : (V m c main_v0 : S16x1536x3.Idx → EReal) = (shapeCast S16x1536x3 (arg1 m c) shapeCasts_S24576x3_S16x1536x3) := by
  show StableHlo.after hostOps0 (fun b => m (c, b)) (Proc.devRef .tc main_v0) = _
  after_results
  rfl

theorem V_v1 (c : Dev nD) : (V m c main_v1 : S16x3x1536.Idx → EReal) = (transpose S16x3x1536 [0, 2, 1] (shapeCast S16x1536x3 (arg1 m c) shapeCasts_S24576x3_S16x1536x3) transposes_S16x1536x3_S16x3x1536_0_2_1) := by
  show StableHlo.after hostOps0 (fun b => m (c, b)) (Proc.devRef .tc main_v1) = _
  after_results
  rfl

theorem V_v4 (c : Dev nD) : (V m c main_v4 : S16x1x1536.Idx → EReal)
    = broadcastInDim S16x1x1536 ![0, 2] bcast_S16x1536_S16x1x1536_0_2
        (Host.reduceAdd (F := Ideal) (mulf (transpose S16x3x1536 [0, 2, 1] (shapeCast S16x1536x3 (arg1 m c) shapeCasts_S24576x3_S16x1536x3) transposes_S16x1536x3_S16x3x1536_0_2_1) (transpose S16x3x1536 [0, 2, 1] (shapeCast S16x1536x3 (arg1 m c) shapeCasts_S24576x3_S16x1536x3) transposes_S16x1536x3_S16x3x1536_0_2_1))
          (constant (F := Ideal) S_ .f32 0x00000000#32) reducesTo_S16x3x1536_S16x1536_d1 h_S_) := by
  show StableHlo.after hostOps0 (fun b => m (c, b)) (Proc.devRef .tc main_v4) = _
  after_results
  rfl

theorem V_v6 (c : Dev nD) : (V m c main_v6 : S16x1536x1.Idx → EReal)
    = shapeCast S16x1536x1 (sitofp (F := Ideal) .f32 (arg2 m c)) shapeCasts_S24576x1_S16x1536x1 := by
  show StableHlo.after hostOps0 (fun b => m (c, b)) (Proc.devRef .tc main_v6) = _
  after_results
  rfl

theorem V_v8 (c : Dev nD) : (V m c main_v8 : S16x1x1536.Idx → EReal)
    = broadcastInDim S16x1x1536 ![0, 2] bcast_S16x1536_S16x1x1536_0_2
        (shapeCast S16x1536 (sitofp (F := Ideal) .f32 (arg2 m c)) shapeCasts_S24576x1_S16x1536) := by
  show StableHlo.after hostOps0 (fun b => m (c, b)) (Proc.devRef .tc main_v8) = _
  after_results
  rfl

/-! ## The host terms read at an index -/

/-- The reshaped coordinates: protein `b`, atom `a`, coordinate `d`. -/
theorem coords_apply (c : Dev nD) (b : Fin 16) (a : Fin 1536) (d : Fin 3) :
    (shapeCast S16x1536x3 (arg1 m c) shapeCasts_S24576x3_S16x1536x3) (ix3 b a d) = Spec.coord (arg1 m c) b a d := by
  unfold Spec.coord
  refine shapeCast_apply _ _ _ _ ?_
  rw [Shape.rowMajor_val_two, Shape.rowMajor_val_three]
  show (b.val * 1536 + a.val) * 3 + d.val = (b.val * 1536 + a.val) * 3 + d.val
  rfl

/-- The transposed coordinates. -/
theorem coordsT_apply (c : Dev nD) (b : Fin 16) (d : Fin 3) (a : Fin 1536) :
    (transpose S16x3x1536 [0, 2, 1] (shapeCast S16x1536x3 (arg1 m c) shapeCasts_S24576x3_S16x1536x3) transposes_S16x1536x3_S16x3x1536_0_2_1) (ix3 b d a) = Spec.coord (arg1 m c) b a d :=
  (transpose_ix3_021_apply _ _ b d a).trans (coords_apply m c b a d)

/-- The squared norms, summed on the host from zero over the three transposed coordinates. -/
theorem sqrow_apply (c : Dev nD) (b : Fin 16) (u : Fin 1) (a : Fin 1536) :
    broadcastInDim S16x1x1536 ![0, 2] bcast_S16x1536_S16x1x1536_0_2
        (Host.reduceAdd (F := Ideal) (mulf (transpose S16x3x1536 [0, 2, 1] (shapeCast S16x1536x3 (arg1 m c) shapeCasts_S24576x3_S16x1536x3) transposes_S16x1536x3_S16x3x1536_0_2_1) (transpose S16x3x1536 [0, 2, 1] (shapeCast S16x1536x3 (arg1 m c) shapeCasts_S24576x3_S16x1536x3) transposes_S16x1536x3_S16x3x1536_0_2_1))
          (constant (F := Ideal) S_ .f32 0x00000000#32) reducesTo_S16x3x1536_S16x1536_d1 h_S_) (ix3 b u a)
      = Spec.sqn (arg1 m c) b a := by
  refine (broadcastInDim_apply _ _ _ (ix3 b u a) (ix2 b a) fun ax => ?_).trans ?_
  · match ax with
    | ⟨0, _⟩ => rfl
    | ⟨1, _⟩ => rfl
  · simp only [Host.reduceAdd, Ideal.hostReduceAdd_def]
    rw [Ideal.hostReduceAdd_single reducesTo_S16x3x1536_S16x1536_d1 (by decide)]
    show Ideal.ofBits .f32 0x00000000#32 + _ = _
    rw [Ideal.ofBits_zero_f32, zero_add]
    unfold Spec.sqn
    refine Finset.sum_congr rfl fun (d : Fin 3) _ => ?_
    show (transpose S16x3x1536 [0, 2, 1] (shapeCast S16x1536x3 (arg1 m c) shapeCasts_S24576x3_S16x1536x3) transposes_S16x1536x3_S16x3x1536_0_2_1) _ * (transpose S16x3x1536 [0, 2, 1] (shapeCast S16x1536x3 (arg1 m c) shapeCasts_S24576x3_S16x1536x3) transposes_S16x1536x3_S16x3x1536_0_2_1) _ = _
    have e : ((by decide : S16x3x1536.Reduces [1] S16x1536).lift (ix2 b a) d) = ix3 b d a :=
      funext fun ax => Fin.ext (by match ax with | ⟨0, _⟩ => rfl | ⟨1, _⟩ => rfl | ⟨2, _⟩ => rfl)
    rw [e, coordsT_apply]

/-- The masks as floats, one column entry per atom. -/
theorem maskcol_apply (c : Dev nD) (b : Fin 16) (a : Fin 1536) (u : Fin 1) :
    shapeCast S16x1536x1 (sitofp (F := Ideal) .f32 (arg2 m c)) shapeCasts_S24576x1_S16x1536x1 (ix3 b a u)
      = Spec.msk (arg2 m c) b a := by
  refine (shapeCast_apply _ _ (ix3 b a u) (ix2 (atom b a) (0 : Fin 1)) ?_).trans rfl
  have hu : u.val = 0 := by omega
  rw [Shape.rowMajor_val_two, Shape.rowMajor_val_three]
  show (b.val * 1536 + a.val) * 1 + 0 = (b.val * 1536 + a.val) * 1 + u.val
  rw [hu]

/-- The masks as floats, one row per protein. -/
theorem maskrow_apply (c : Dev nD) (b : Fin 16) (u : Fin 1) (a : Fin 1536) :
    broadcastInDim S16x1x1536 ![0, 2] bcast_S16x1536_S16x1x1536_0_2
        (shapeCast S16x1536 (sitofp (F := Ideal) .f32 (arg2 m c)) shapeCasts_S24576x1_S16x1536) (ix3 b u a)
      = Spec.msk (arg2 m c) b a := by
  refine (broadcastInDim_apply _ _ _ (ix3 b u a) (ix2 b a) fun ax => ?_).trans ?_
  · match ax with
    | ⟨0, _⟩ => rfl
    | ⟨1, _⟩ => rfl
  · refine (shapeCast_apply _ _ (ix2 b a) (ix2 (atom b a) (0 : Fin 1)) ?_).trans rfl
    rw [Shape.rowMajor_val_two, Shape.rowMajor_val_two]
    show (b.val * 1536 + a.val) * 1 + 0 = b.val * 1536 + a.val
    omega

/-! ## The grid: protein and row tile of a point, and the windows' block indices -/

/-- The grid point's protein. -/
def pb (t : Fin cfg0.N) : Fin 16 := ⟨t.val / 3, by have := t.isLt; have hN : cfg0.N = 48 := N_0; omega⟩
/-- The grid point's row tile. -/
def pk (t : Fin cfg0.N) : Fin 3 := ⟨t.val % 3, by omega⟩

theorem idx0 : ∀ t : Fin cfg0.N, win0_0.index t 0 = t.val / 3 ∧ win0_0.index t 1 = t.val % 3 ∧ win0_0.index t 2 = 0 :=
  (by decide +kernel : ∀ t : Fin grid0.N, win0_0.index t 0 = t.val / 3 ∧ win0_0.index t 1 = t.val % 3 ∧ win0_0.index t 2 = 0)
theorem idx1 : ∀ t : Fin cfg0.N, win0_1.index t 0 = t.val / 3 ∧ win0_1.index t 1 = t.val % 3 ∧ win0_1.index t 2 = 0 :=
  (by decide +kernel : ∀ t : Fin grid0.N, win0_1.index t 0 = t.val / 3 ∧ win0_1.index t 1 = t.val % 3 ∧ win0_1.index t 2 = 0)
theorem idx2 : ∀ t : Fin cfg0.N, win0_2.index t 0 = t.val / 3 ∧ win0_2.index t 1 = 0 ∧ win0_2.index t 2 = 0 :=
  (by decide +kernel : ∀ t : Fin grid0.N, win0_2.index t 0 = t.val / 3 ∧ win0_2.index t 1 = 0 ∧ win0_2.index t 2 = 0)
theorem idx3 : ∀ t : Fin cfg0.N, win0_3.index t 0 = t.val / 3 ∧ win0_3.index t 1 = 0 ∧ win0_3.index t 2 = 0 :=
  (by decide +kernel : ∀ t : Fin grid0.N, win0_3.index t 0 = t.val / 3 ∧ win0_3.index t 1 = 0 ∧ win0_3.index t 2 = 0)
theorem idx4 : ∀ t : Fin cfg0.N, win0_4.index t 0 = t.val / 3 ∧ win0_4.index t 1 = 0 ∧ win0_4.index t 2 = 0 :=
  (by decide +kernel : ∀ t : Fin grid0.N, win0_4.index t 0 = t.val / 3 ∧ win0_4.index t 1 = 0 ∧ win0_4.index t 2 = 0)
theorem idx5 : ∀ t : Fin cfg0.N, win0_5.index t 0 = t.val / 3 ∧ win0_5.index t 1 = t.val % 3 ∧ win0_5.index t 2 = 0 :=
  (by decide +kernel : ∀ t : Fin grid0.N, win0_5.index t 0 = t.val / 3 ∧ win0_5.index t 1 = t.val % 3 ∧ win0_5.index t 2 = 0)

/-! ## The six input blocks at a point, read at an index -/

/-- The distance-map tile: rows of tile `t % 3` of protein `t / 3`. -/
theorem blk0 (c : Dev nD) (t : Fin cfg0.N) (u : Fin 1) (r : Fin 512) (q : Fin 1536) :
    (iblk m c 0 t : Vec Ideal S1x512x1536 .f32) (ix3 u r q)
      = arg0 m c (ix3 (pb t) (tileRow (pk t) r) q) := by
  unfold iblk
  rw [View.read_apply]
  show V m c main_arg0 _ = _
  rw [V_main_arg0]
  refine congrArg (m ((c : Thread nD τ).loc main_arg0)) (funext fun a => Fin.ext ?_)
  have hu : u.val = 0 := by omega
  obtain ⟨h0, h1, h2⟩ := idx0 t
  match a with
  | ⟨0, _⟩ => show win0_0.index t 0 * 1 + 1 * u.val = t.val / 3; rw [h0, hu]; omega
  | ⟨1, _⟩ => show win0_0.index t 1 * 512 + 1 * r.val = t.val % 3 * 512 + r.val; rw [h1]; omega
  | ⟨2, _⟩ => show win0_0.index t 2 * 1536 + 1 * q.val = q.val; rw [h2]; omega

/-- The tile's atoms' coordinates. -/
theorem blk1 (c : Dev nD) (t : Fin cfg0.N) (u : Fin 1) (r : Fin 512) (d : Fin 3) :
    (iblk m c 1 t : Vec Ideal S1x512x3 .f32) (ix3 u r d) = Spec.coord (arg1 m c) (pb t) (tileRow (pk t) r) d := by
  unfold iblk
  rw [View.read_apply]
  show (V m c main_v0 : S16x1536x3.Idx → EReal) _ = _
  rw [V_v0]
  refine Eq.trans (congrArg _ (funext fun a => Fin.ext ?_)) (coords_apply m c (pb t) (tileRow (pk t) r) d)
  have hu : u.val = 0 := by omega
  obtain ⟨h0, h1, h2⟩ := idx1 t
  match a with
  | ⟨0, _⟩ => show win0_1.index t 0 * 1 + 1 * u.val = t.val / 3; rw [h0, hu]; omega
  | ⟨1, _⟩ => show win0_1.index t 1 * 512 + 1 * r.val = t.val % 3 * 512 + r.val; rw [h1]; omega
  | ⟨2, _⟩ => show win0_1.index t 2 * 3 + 1 * d.val = d.val; rw [h2]; omega

/-- All atoms' coordinates of the protein, transposed. -/
theorem blk2 (c : Dev nD) (t : Fin cfg0.N) (u : Fin 1) (d : Fin 3) (q : Fin 1536) :
    (iblk m c 2 t : Vec Ideal S1x3x1536 .f32) (ix3 u d q) = Spec.coord (arg1 m c) (pb t) q d := by
  unfold iblk
  rw [View.read_apply]
  show (V m c main_v1 : S16x3x1536.Idx → EReal) _ = _
  rw [V_v1]
  refine Eq.trans (congrArg _ (funext fun a => Fin.ext ?_)) (coordsT_apply m c (pb t) d q)
  have hu : u.val = 0 := by omega
  obtain ⟨h0, h1, h2⟩ := idx2 t
  match a with
  | ⟨0, _⟩ => show win0_2.index t 0 * 1 + 1 * u.val = t.val / 3; rw [h0, hu]; omega
  | ⟨1, _⟩ => show win0_2.index t 1 * 3 + 1 * d.val = d.val; rw [h1]; omega
  | ⟨2, _⟩ => show win0_2.index t 2 * 1536 + 1 * q.val = q.val; rw [h2]; omega

/-- All atoms' squared norms of the protein. -/
theorem blk3 (c : Dev nD) (t : Fin cfg0.N) (u v : Fin 1) (q : Fin 1536) :
    (iblk m c 3 t : Vec Ideal S1x1x1536 .f32) (ix3 u v q) = Spec.sqn (arg1 m c) (pb t) q := by
  unfold iblk
  rw [View.read_apply]
  show (V m c main_v4 : S16x1x1536.Idx → EReal) _ = _
  rw [V_v4]
  refine Eq.trans (congrArg _ (funext fun a => Fin.ext ?_)) (sqrow_apply m c (pb t) (0 : Fin 1) q)
  have hu : u.val = 0 := by omega
  have hv : v.val = 0 := by omega
  obtain ⟨h0, h1, h2⟩ := idx3 t
  match a with
  | ⟨0, _⟩ => show win0_3.index t 0 * 1 + 1 * u.val = t.val / 3; rw [h0, hu]; omega
  | ⟨1, _⟩ => show win0_3.index t 1 * 1 + 1 * v.val = 0; rw [h1, hv]
  | ⟨2, _⟩ => show win0_3.index t 2 * 1536 + 1 * q.val = q.val; rw [h2]; omega

/-- All atoms' masks of the protein, as a row. -/
theorem blk4 (c : Dev nD) (t : Fin cfg0.N) (u v : Fin 1) (q : Fin 1536) :
    (iblk m c 4 t : Vec Ideal S1x1x1536 .f32) (ix3 u v q) = Spec.msk (arg2 m c) (pb t) q := by
  unfold iblk
  rw [View.read_apply]
  show (V m c main_v8 : S16x1x1536.Idx → EReal) _ = _
  rw [V_v8]
  refine Eq.trans (congrArg _ (funext fun a => Fin.ext ?_)) (maskrow_apply m c (pb t) (0 : Fin 1) q)
  have hu : u.val = 0 := by omega
  have hv : v.val = 0 := by omega
  obtain ⟨h0, h1, h2⟩ := idx4 t
  match a with
  | ⟨0, _⟩ => show win0_4.index t 0 * 1 + 1 * u.val = t.val / 3; rw [h0, hu]; omega
  | ⟨1, _⟩ => show win0_4.index t 1 * 1 + 1 * v.val = 0; rw [h1, hv]
  | ⟨2, _⟩ => show win0_4.index t 2 * 1536 + 1 * q.val = q.val; rw [h2]; omega

/-- The tile's atoms' masks, as a column. -/
theorem blk5 (c : Dev nD) (t : Fin cfg0.N) (u : Fin 1) (r : Fin 512) (v : Fin 1) :
    (iblk m c 5 t : Vec Ideal S1x512x1 .f32) (ix3 u r v) = Spec.msk (arg2 m c) (pb t) (tileRow (pk t) r) := by
  unfold iblk
  rw [View.read_apply]
  show (V m c main_v6 : S16x1536x1.Idx → EReal) _ = _
  rw [V_v6]
  refine Eq.trans (congrArg _ (funext fun a => Fin.ext ?_)) (maskcol_apply m c (pb t) (tileRow (pk t) r) (0 : Fin 1))
  have hu : u.val = 0 := by omega
  have hv : v.val = 0 := by omega
  obtain ⟨h0, h1, h2⟩ := idx5 t
  match a with
  | ⟨0, _⟩ => show win0_5.index t 0 * 1 + 1 * u.val = t.val / 3; rw [h0, hu]; omega
  | ⟨1, _⟩ => show win0_5.index t 1 * 512 + 1 * r.val = t.val % 3 * 512 + r.val; rw [h1]; omega
  | ⟨2, _⟩ => show win0_5.index t 2 * 1 + 1 * v.val = 0; rw [h2, hv]

end Cert.KernelBlocks

end
-- ==== Proof.KernelAccum.lean ====
/-
  What the two output arrays hold after the kernel has run, as functions of its argument arrays.

  A protein's three row tiles are consecutive grid points. At the first the accumulators are reset to zero and gain
  the tile's sums, at the second they gain the second tile's, at the third they gain the third tile's and are copied
  to the outputs' entries of that protein, which are written back there and nowhere else. So entry `b` of the first
  output is protein `b`'s squared-error total and entry `b` of the second its pair-mask total, each accumulated from
  zero over the three tiles in order.
-/
import proofs.«135044_j34926674051539_2_alg».proof.Proof.KernelPieces
import proofs.«135044_j34926674051539_2_alg».proof.Proof.TileValue
import proofs.«135044_j34926674051539_2_alg».proof.Proof.KernelBlocks

noncomputable section

open scoped BigOperators
open Idealize.ShloMosaic Idealize.ShloMosaic.TcCoe Idealize.SL.Sem Idealize.ShloMosaic.ValueIdx
open Idealize.ShloMosaic.Pipeline (Dat)

namespace Cert.KernelAccum

open Cert.KernelIdeal Cert.KernelIdeal.Gen Cert.KernelPieces Cert.TileValue Cert.KernelBlocks
open Cert.Spec (tileRow)

variable (m : (ℓ : Loc nD τ sig) → Buf (Elt Ideal) ℓ)

/-! ## A point's tile sums are the specification's -/

theorem tileSq_point (c : Dev nD) (t : Fin cfg0.N) :
    tileSq (iblk m c 0 t) (iblk m c 1 t) (iblk m c 2 t) (iblk m c 3 t) (iblk m c 4 t) (iblk m c 5 t) = Spec.tileSqS (arg0 m c) (arg1 m c) (arg2 m c) (pb t) (pk t) := by
  unfold tileSq Spec.tileSqS
  refine Finset.sum_congr rfl fun r _ => Finset.sum_congr rfl fun q _ => ?_
  unfold tErr
  simp only [blk0 m c t, blk1 m c t, blk2 m c t, blk3 m c t, blk4 m c t, blk5 m c t]
  unfold Spec.err Spec.pm Spec.dist Spec.d2
  rw [show Spec.gram (arg1 m c) (pb t) (tileRow (pk t) r) q = _ from Fin.sum_univ_three _]
  rfl

theorem tilePm_point (c : Dev nD) (t : Fin cfg0.N) :
    tilePm (iblk m c 4 t) (iblk m c 5 t) = Spec.tilePmS (arg2 m c) (pb t) (pk t) := by
  unfold tilePm Spec.tilePmS
  simp only [blk4 m c t, blk5 m c t]

/-- The squared-error accumulator's update at point `t`. -/
abbrev stepSq (c : Dev nD) (t : Fin cfg0.N) (acc : Vec Ideal S1x1 .f32) : Vec Ideal S1x1 .f32 := accSq (iblk m c 0 t) (iblk m c 1 t) (iblk m c 2 t) (iblk m c 3 t) (iblk m c 4 t) (iblk m c 5 t) acc
/-- The pair-mask accumulator's update at point `t`. -/
abbrev stepPm (c : Dev nD) (t : Fin cfg0.N) (acc : Vec Ideal S1x1 .f32) : Vec Ideal S1x1 .f32 := accPm (iblk m c 4 t) (iblk m c 5 t) acc

theorem stepSq_apply (c : Dev nD) (t : Fin cfg0.N) (acc : Vec Ideal S1x1 .f32) :
    stepSq m c t acc (ix2 (0 : Fin 1) (0 : Fin 1)) = acc (ix2 (0 : Fin 1) (0 : Fin 1)) + Spec.tileSqS (arg0 m c) (arg1 m c) (arg2 m c) (pb t) (pk t) :=
  (accSq_apply (iblk m c 0 t) (iblk m c 1 t) (iblk m c 2 t) (iblk m c 3 t) (iblk m c 4 t) (iblk m c 5 t) acc (0 : Fin 1) (0 : Fin 1)).trans
    (congrArg (acc (ix2 (0 : Fin 1) (0 : Fin 1)) + ·) (tileSq_point m c t))

theorem stepPm_apply (c : Dev nD) (t : Fin cfg0.N) (acc : Vec Ideal S1x1 .f32) :
    stepPm m c t acc (ix2 (0 : Fin 1) (0 : Fin 1)) = acc (ix2 (0 : Fin 1) (0 : Fin 1)) + Spec.tilePmS (arg2 m c) (pb t) (pk t) :=
  (accPm_apply (iblk m c 4 t) (iblk m c 5 t) acc (0 : Fin 1) (0 : Fin 1)).trans
    (congrArg (acc (ix2 (0 : Fin 1) (0 : Fin 1)) + ·) (tilePm_point m c t))

/-- The reset stores zero. -/
theorem pay5_apply (u v : Fin 1) : k0_pay5 (F := Ideal) (ix2 u v) = Spec.zero := by
  unfold k0_pay5
  exact (congrFun (shapeCast_self _ _) _).trans rfl
theorem pay6_apply (u v : Fin 1) : k0_pay6 (F := Ideal) (ix2 u v) = Spec.zero := by
  unfold k0_pay6
  exact (congrFun (shapeCast_self _ _) _).trans rfl

/-- An accumulator copied to an output block: the same entry. -/
theorem pay3_apply (x : Vec Ideal S1x1 .f32) (u v w : Fin 1) : k0_pay3 x (ix3 u v w) = x (ix2 v w) :=
  shapeCast_ab_1ab_apply x _ u v w
theorem pay4_apply (x : Vec Ideal S1x1 .f32) (u v w : Fin 1) : k0_pay4 x (ix3 u v w) = x (ix2 v w) :=
  shapeCast_ab_1ab_apply x _ u v w

/-! ## The accumulators and outputs after a point, case by case -/

theorem scrA (c : Dev nD) (t : Fin cfg0.N) (h0 : t.val % 3 = 0) (h1 : ¬t.val % 3 = 2) :
    (outsAt0 m c t.val t.isLt).2.2.1 = stepSq m c t (k0_pay5 (F := Ideal))
      ∧ (outsAt0 m c t.val t.isLt).2.2.2 = stepPm m c t (k0_pay6 (F := Ideal)) := by
  rw [outsAt0_A m c t h0 h1]
  dsimp only
  exact ⟨sA0 (F := Ideal) .., sA1 (F := Ideal) ..⟩

theorem scrB (c : Dev nD) (t : Fin cfg0.N) (h0 : ¬t.val % 3 = 0) (h1 : ¬t.val % 3 = 2) (hp : t.val - 1 < cfg0.N) :
    (outsAt0 m c t.val t.isLt).2.2.1 = stepSq m c t (outsAt0 m c (t.val - 1) hp).2.2.1
      ∧ (outsAt0 m c t.val t.isLt).2.2.2 = stepPm m c t (outsAt0 m c (t.val - 1) hp).2.2.2 := by
  rw [outsAt0_B m c t h0 h1]
  dsimp only
  exact ⟨sB0 (F := Ideal) .., sB1 (F := Ideal) ..⟩

theorem outC (c : Dev nD) (t : Fin cfg0.N) (h0 : ¬t.val % 3 = 0) (h1 : t.val % 3 = 2) (hp : t.val - 1 < cfg0.N) :
    (outsAt0 m c t.val t.isLt).1 = k0_pay3 (stepSq m c t (outsAt0 m c (t.val - 1) hp).2.2.1)
      ∧ (outsAt0 m c t.val t.isLt).2.1 = k0_pay4 (stepPm m c t (outsAt0 m c (t.val - 1) hp).2.2.2) := by
  rw [outsAt0_C m c t h0 h1]
  dsimp only
  exact ⟨oC6 (F := Ideal) .., oC7 (F := Ideal) ..⟩

/-- At a protein's last tile the two outputs' blocks hold the protein's two totals. -/
theorem out_vals (c : Dev nD) (t : Fin cfg0.N) (h2 : t.val % 3 = 2) :
    (outsAt0 m c t.val t.isLt).1 (ix3 (0 : Fin 1) (0 : Fin 1) (0 : Fin 1)) = Spec.accSqS (arg0 m c) (arg1 m c) (arg2 m c) (pb t)
      ∧ (outsAt0 m c t.val t.isLt).2.1 (ix3 (0 : Fin 1) (0 : Fin 1) (0 : Fin 1)) = Spec.accPmS (arg2 m c) (pb t) := by
  have hN : cfg0.N = 48 := N_0
  have ht := t.isLt
  have hlt1 : t.val - 1 < cfg0.N := by omega
  have hlt0 : t.val - 1 - 1 < cfg0.N := by omega
  obtain ⟨hC6, hC7⟩ := outC m c t (by omega) h2 hlt1
  obtain ⟨hB0, hB1⟩ := scrB m c ⟨t.val - 1, hlt1⟩ (by show ¬(t.val - 1) % 3 = 0; omega) (by show ¬(t.val - 1) % 3 = 2; omega) hlt0
  obtain ⟨hA0, hA1⟩ := scrA m c ⟨t.val - 1 - 1, hlt0⟩ (by show (t.val - 1 - 1) % 3 = 0; omega) (by show ¬(t.val - 1 - 1) % 3 = 2; omega)
  have p1 : pb (⟨t.val - 1, hlt1⟩ : Fin cfg0.N) = pb t := Fin.ext (by show (t.val - 1) / 3 = t.val / 3; omega)
  have p0 : pb (⟨t.val - 1 - 1, hlt0⟩ : Fin cfg0.N) = pb t := Fin.ext (by show (t.val - 1 - 1) / 3 = t.val / 3; omega)
  have k2 : pk t = (2 : Fin 3) := Fin.ext (by show t.val % 3 = 2; omega)
  have k1 : pk (⟨t.val - 1, hlt1⟩ : Fin cfg0.N) = (1 : Fin 3) := Fin.ext (by show (t.val - 1) % 3 = 1; omega)
  have k0 : pk (⟨t.val - 1 - 1, hlt0⟩ : Fin cfg0.N) = (0 : Fin 3) := Fin.ext (by show (t.val - 1 - 1) % 3 = 0; omega)
  constructor
  · have e2 := (congrFun hC6 _).trans ((pay3_apply _ (0 : Fin 1) (0 : Fin 1) (0 : Fin 1)).trans (stepSq_apply m c t _))
    have e1 := (congrFun hB0 (ix2 (0 : Fin 1) (0 : Fin 1))).trans (stepSq_apply m c ⟨t.val - 1, hlt1⟩ _)
    have e0 := (congrFun hA0 (ix2 (0 : Fin 1) (0 : Fin 1))).trans (stepSq_apply m c ⟨t.val - 1 - 1, hlt0⟩ _)
    rw [pay5_apply] at e0
    rw [p0, k0] at e0
    rw [p1, k1] at e1
    rw [k2] at e2
    refine e2.trans ?_
    unfold Spec.accSqS
    refine congrArg (· + _) ?_
    refine (e1.trans ?_)
    exact congrArg (· + _) e0
  · have e2 := (congrFun hC7 _).trans ((pay4_apply _ (0 : Fin 1) (0 : Fin 1) (0 : Fin 1)).trans (stepPm_apply m c t _))
    have e1 := (congrFun hB1 (ix2 (0 : Fin 1) (0 : Fin 1))).trans (stepPm_apply m c ⟨t.val - 1, hlt1⟩ _)
    have e0 := (congrFun hA1 (ix2 (0 : Fin 1) (0 : Fin 1))).trans (stepPm_apply m c ⟨t.val - 1 - 1, hlt0⟩ _)
    rw [pay6_apply] at e0
    rw [p0, k0] at e0
    rw [p1, k1] at e1
    rw [k2] at e2
    refine e2.trans ?_
    unfold Spec.accPmS
    refine congrArg (· + _) ?_
    refine (e1.trans ?_)
    exact congrArg (· + _) e0

/-! ## The output arrays after the run -/

/-- The first output: protein `b`'s squared-error total at entry `b`. -/
def outSq (c : Dev nD) : S16x1x1.Idx → EReal := fun j => Spec.accSqS (arg0 m c) (arg1 m c) (arg2 m c) ⟨(j 0).val, (j 0).isLt⟩
/-- The second output: protein `b`'s pair-mask total at entry `b`. -/
def outPm (c : Dev nD) : S16x1x1.Idx → EReal := fun j => Spec.accPmS (arg2 m c) ⟨(j 0).val, (j 0).isLt⟩

theorem idx6 : ∀ t : Fin cfg0.N, win0_6.index t 0 = t.val / 3 ∧ win0_6.index t 1 = 0 ∧ win0_6.index t 2 = 0 :=
  (by decide +kernel : ∀ t : Fin grid0.N, win0_6.index t 0 = t.val / 3 ∧ win0_6.index t 1 = 0 ∧ win0_6.index t 2 = 0)
theorem idx7 : ∀ t : Fin cfg0.N, win0_7.index t 0 = t.val / 3 ∧ win0_7.index t 1 = 0 ∧ win0_7.index t 2 = 0 :=
  (by decide +kernel : ∀ t : Fin grid0.N, win0_7.index t 0 = t.val / 3 ∧ win0_7.index t 1 = 0 ∧ win0_7.index t 2 = 0)

/-- What a protein's last tile writes back into the first output is that protein's entry of `outSq`. -/
theorem flushed6 (c : Dev nD) (t : Fin cfg0.N) (hf : (cfg0.win 6).flush t = true) :
    (dats m 0 c).flushed 6 t = ((cfg0.win 6).blk t).view.read (Elt Ideal) (outSq m c) := by
  have h2 : t.val % 3 = 2 := (flush0_6 t).mp hf
  show (cfg0.win 6).cut (grid0.coords t) ((dats m 0 c).after 6 t) = _
  rw [after0_6]
  refine funext fun (y : S1x1x1.Idx) => ?_
  rw [View.read_apply]
  obtain ⟨u, v, w, rfl⟩ : ∃ (u v w : Fin 1), y = ix3 u v w := ⟨y 0, y 1, y 2, eq_ix3 y⟩
  obtain rfl : u = 0 := Subsingleton.elim _ _
  obtain rfl : v = 0 := Subsingleton.elim _ _
  obtain rfl : w = 0 := Subsingleton.elim _ _
  show (outsAt0 m c t.val t.isLt).1 (ix3 (0 : Fin 1) (0 : Fin 1) (0 : Fin 1)) = outSq m c _
  rw [(out_vals m c t h2).1]
  unfold outSq
  refine congrArg (Spec.accSqS (arg0 m c) (arg1 m c) (arg2 m c)) (Fin.ext ?_)
  show t.val / 3 = win0_6.index t 0 * 1 + 1 * 0
  rw [(idx6 t).1]; omega

theorem flushed7 (c : Dev nD) (t : Fin cfg0.N) (hf : (cfg0.win 7).flush t = true) :
    (dats m 0 c).flushed 7 t = ((cfg0.win 7).blk t).view.read (Elt Ideal) (outPm m c) := by
  have h2 : t.val % 3 = 2 := (flush0_7 t).mp hf
  show (cfg0.win 7).cut (grid0.coords t) ((dats m 0 c).after 7 t) = _
  rw [after0_7]
  refine funext fun (y : S1x1x1.Idx) => ?_
  rw [View.read_apply]
  obtain ⟨u, v, w, rfl⟩ : ∃ (u v w : Fin 1), y = ix3 u v w := ⟨y 0, y 1, y 2, eq_ix3 y⟩
  obtain rfl : u = 0 := Subsingleton.elim _ _
  obtain rfl : v = 0 := Subsingleton.elim _ _
  obtain rfl : w = 0 := Subsingleton.elim _ _
  show (outsAt0 m c t.val t.isLt).2.1 (ix3 (0 : Fin 1) (0 : Fin 1) (0 : Fin 1)) = outPm m c _
  rw [(out_vals m c t h2).2]
  unfold outPm
  refine congrArg (Spec.accPmS (arg2 m c)) (Fin.ext ?_)
  show t.val / 3 = win0_7.index t 0 * 1 + 1 * 0
  rw [(idx7 t).1]; omega

/-! Every entry of an output is written back by its protein's last tile. -/

/-- An entry is in point `t`'s block of this output iff each coordinate is in the block's range. -/
theorem mem_blk6 (t : Fin cfg0.N) (i : S16x1x1.Idx) :
    i ∈ ((cfg0.win 6).blk t).view.set
      ↔ ∀ a : Fin 3, win0_6.index t a * S1x1x1.size a ≤ (i a).val ∧ (i a).val < win0_6.index t a * S1x1x1.size a + S1x1x1.size a := by
  show i ∈ ((View.whole main_v9_0).slice (win0_6.rect t)).set ↔ _
  rw [View.set_slice_whole, Rect.mem_set_unit]
  exact Iff.rfl

theorem cover6 (i : S16x1x1.Idx) : ∃ t : Fin cfg0.N, (cfg0.win 6).flush t = true ∧ i ∈ ((cfg0.win 6).blk t).view.set := by
  have hN : cfg0.N = 48 := N_0
  have h0 : (i 0).val < 16 := (i 0).isLt
  have h1 : (i 1).val < 1 := (i 1).isLt
  have h2 : (i 2).val < 1 := (i 2).isLt
  have hlt : 3 * (i 0).val + 2 < cfg0.N := by omega
  obtain ⟨e0, e1, e2⟩ := idx6 ⟨3 * (i 0).val + 2, hlt⟩
  refine ⟨⟨3 * (i 0).val + 2, hlt⟩, (flush0_6 _).mpr (by show (3 * (i 0).val + 2) % 3 = 2; omega), (mem_blk6 _ i).mpr ?_⟩
  intro a
  match a with
  | ⟨0, _⟩ =>
    show win0_6.index ⟨3 * (i 0).val + 2, hlt⟩ 0 * 1 ≤ (i 0).val ∧ (i 0).val < win0_6.index ⟨3 * (i 0).val + 2, hlt⟩ 0 * 1 + 1
    rw [e0]; show (3 * (i 0).val + 2) / 3 * 1 ≤ (i 0).val ∧ (i 0).val < (3 * (i 0).val + 2) / 3 * 1 + 1; omega
  | ⟨1, _⟩ =>
    show win0_6.index ⟨3 * (i 0).val + 2, hlt⟩ 1 * 1 ≤ (i 1).val ∧ (i 1).val < win0_6.index ⟨3 * (i 0).val + 2, hlt⟩ 1 * 1 + 1
    rw [e1]; omega
  | ⟨2, _⟩ =>
    show win0_6.index ⟨3 * (i 0).val + 2, hlt⟩ 2 * 1 ≤ (i 2).val ∧ (i 2).val < win0_6.index ⟨3 * (i 0).val + 2, hlt⟩ 2 * 1 + 1
    rw [e2]; omega

/-- An entry is in point `t`'s block of this output iff each coordinate is in the block's range. -/
theorem mem_blk7 (t : Fin cfg0.N) (i : S16x1x1.Idx) :
    i ∈ ((cfg0.win 7).blk t).view.set
      ↔ ∀ a : Fin 3, win0_7.index t a * S1x1x1.size a ≤ (i a).val ∧ (i a).val < win0_7.index t a * S1x1x1.size a + S1x1x1.size a := by
  show i ∈ ((View.whole main_v9_1).slice (win0_7.rect t)).set ↔ _
  rw [View.set_slice_whole, Rect.mem_set_unit]
  exact Iff.rfl

theorem cover7 (i : S16x1x1.Idx) : ∃ t : Fin cfg0.N, (cfg0.win 7).flush t = true ∧ i ∈ ((cfg0.win 7).blk t).view.set := by
  have hN : cfg0.N = 48 := N_0
  have h0 : (i 0).val < 16 := (i 0).isLt
  have h1 : (i 1).val < 1 := (i 1).isLt
  have h2 : (i 2).val < 1 := (i 2).isLt
  have hlt : 3 * (i 0).val + 2 < cfg0.N := by omega
  obtain ⟨e0, e1, e2⟩ := idx7 ⟨3 * (i 0).val + 2, hlt⟩
  refine ⟨⟨3 * (i 0).val + 2, hlt⟩, (flush0_7 _).mpr (by show (3 * (i 0).val + 2) % 3 = 2; omega), (mem_blk7 _ i).mpr ?_⟩
  intro a
  match a with
  | ⟨0, _⟩ =>
    show win0_7.index ⟨3 * (i 0).val + 2, hlt⟩ 0 * 1 ≤ (i 0).val ∧ (i 0).val < win0_7.index ⟨3 * (i 0).val + 2, hlt⟩ 0 * 1 + 1
    rw [e0]; show (3 * (i 0).val + 2) / 3 * 1 ≤ (i 0).val ∧ (i 0).val < (3 * (i 0).val + 2) / 3 * 1 + 1; omega
  | ⟨1, _⟩ =>
    show win0_7.index ⟨3 * (i 0).val + 2, hlt⟩ 1 * 1 ≤ (i 1).val ∧ (i 1).val < win0_7.index ⟨3 * (i 0).val + 2, hlt⟩ 1 * 1 + 1
    rw [e1]; omega
  | ⟨2, _⟩ =>
    show win0_7.index ⟨3 * (i 0).val + 2, hlt⟩ 2 * 1 ≤ (i 2).val ∧ (i 2).val < win0_7.index ⟨3 * (i 0).val + 2, hlt⟩ 2 * 1 + 1
    rw [e2]; omega

/-- The first output array after the run. -/
theorem final6 (c : Dev nD) : (dats m 0 c).arrAt 6 cfg0.N = outSq m c :=
  (dats m 0 c).arrAt_eq_of_cover 6 (outSq m c) (flushed6 m c) cover6

/-- The second output array after the run. -/
theorem final7 (c : Dev nD) : (dats m 0 c).arrAt 7 cfg0.N = outPm m c :=
  (dats m 0 c).arrAt_eq_of_cover 7 (outPm m c) (flushed7 m c) cover7

end Cert.KernelAccum

end
-- ==== Proof.LibSumIdx.lean ====
/-
  General lemmas on finite sums over index sets built from coordinates.

  * a rank-3 index set is the product of its three coordinate ranges, so a sum over it is the
    triple sum over the coordinates (the rank-3 companion of the rank-2 statement);
  * a sum over `Fin (m * n)` splits into `m` consecutive tiles of `n` terms each.
-/
import Idealize.ShloMosaic.Lib.ValueIdx

noncomputable section

open scoped BigOperators

namespace Cert.LibSumIdx

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The `r`-th element of the `k`-th tile of width `n`. -/
def tile {m n : Nat} (k : Fin m) (r : Fin n) : Fin (m * n) :=
  ⟨k.val * n + r.val, by
    have hk := k.isLt; have hr := r.isLt
    calc k.val * n + r.val < k.val * n + n := by omega
      _ = (k.val + 1) * n := by ring
      _ ≤ m * n := Nat.mul_le_mul_right n hk⟩

/-- A sum over `Fin (m * n)` is the sum over the `m` tiles of the sums over each tile's `n` elements. -/
theorem sum_tiles {M : Type*} [AddCommMonoid M] {m n : Nat} (f : Fin (m * n) → M) :
    ∑ i, f i = ∑ k : Fin m, ∑ r : Fin n, f (tile k r) := by
  rw [← Equiv.sum_comp (finProdFinEquiv (m := m) (n := n)) f, Fintype.sum_prod_type]
  refine Finset.sum_congr rfl fun k _ => Finset.sum_congr rfl fun r _ => congrArg f (Fin.ext ?_)
  show r.val + n * k.val = k.val * n + r.val
  rw [Nat.mul_comm, Nat.add_comm]

end Cert.LibSumIdx

end
-- ==== Proof.KernelRun.lean ====
/-
  The kernel program's run, read: its one result is the loss accumulated tile by tile.

  After the call the host code sums each of the two 16-entry outputs from zero, divides each sum by the pair count,
  and multiplies the two quotients. With the outputs holding the per-protein totals this is the specification's
  tile-by-tile form of the loss; the argument arrays are left as they were.
-/
import proofs.«135044_j34926674051539_2_alg».proof.Proof.KernelAccum
import proofs.«135044_j34926674051539_2_alg».proof.Proof.LibSumIdx
import Idealize.ShloMosaic.Lib.StableHlo.Run
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelRun

open Cert.KernelIdeal Cert.KernelIdeal.Gen Cert.KernelBlocks Cert.KernelAccum

variable (m : (ℓ : Loc nD τ sig) → Buf (Elt Ideal) ℓ) (ρ : Dev nD → PrngReg)

/-- The first output array as the host code after the call finds it. -/
theorem w6 (c : Dev nD) :
    Pipeline.withArrays (cfgs 0).spec c (V0 m c) (fun w => (dats m 0 c).arrAt w (cfgs 0).N) (Proc.devRef .tc main_v9_0)
      = outSq m c :=
  (Pipeline.withArrays_arr spec0 launch0.win.arr_inj c _ _ 6).trans (final6 m c)

/-- The second output array as the host code after the call finds it. -/
theorem w7 (c : Dev nD) :
    Pipeline.withArrays (cfgs 0).spec c (V0 m c) (fun w => (dats m 0 c).arrAt w (cfgs 0).N) (Proc.devRef .tc main_v9_1)
      = outPm m c :=
  (Pipeline.withArrays_arr spec0 launch0.win.arr_inj c _ _ 7).trans (final7 m c)

/-- A sum over the 16 × 1 × 1 index set is the sum over its 16 first coordinates. -/
theorem sum_out (f : S16x1x1.Idx → EReal) : ∑ j, f j = ∑ b : Fin 16, f (ix3 b (0 : Fin 1) (0 : Fin 1)) := by
  rw [Cert.LibSumIdx.sum_idx3]
  refine Finset.sum_congr rfl fun b _ => ?_
  rw [Fin.sum_univ_one, Fin.sum_univ_one]

/-- The host's sum of a 16-entry output from zero. -/
theorem hsum (y : S16x1x1.Idx → EReal) (i : S_.Idx) :
    Host.reduceAdd (F := Ideal) y (constant (F := Ideal) S_ .f32 0x00000000#32) reducesTo_S16x1x1_S_d0_1_2 h_S_ i
      = Spec.zero + ∑ b : Fin 16, y (ix3 b (0 : Fin 1) (0 : Fin 1)) := by
  simp only [Host.reduceAdd, Ideal.hostReduceAdd_def]
  rw [Ideal.hostReduceAdd_total reducesTo_S16x1x1_S_d0_1_2 (fun b => b.elim0) y _ i, sum_out]
  rfl

/-- The result the host code after the call computes. -/
theorem tail_val (c : Dev nD) :
    Pipeline.afterTail₀ cfgs (dats m) 0 (V0 m) [hostOps1] c main_v14 = fun _ => Spec.lossK (arg0 m c) (arg1 m c) (arg2 m c) := by
  unfold Pipeline.afterTail₀
  show StableHlo.after hostOps1 _ (Proc.devRef .tc main_v14) = _
  after_results
  rw [w6 m c, w7 m c]
  funext i
  show Ideal.div (Host.reduceAdd (F := Ideal) (outSq m c) (constant (F := Ideal) S_ .f32 0x00000000#32) reducesTo_S16x1x1_S_d0_1_2 h_S_ i) Spec.count
      * Ideal.div (Host.reduceAdd (F := Ideal) (outPm m c) (constant (F := Ideal) S_ .f32 0x00000000#32) reducesTo_S16x1x1_S_d0_1_2 h_S_ i) Spec.count = _
  rw [hsum, hsum]
  rfl

/-- Every weakly fair execution of the kernel program terminates with its result at the tile-by-tile loss of its
    argument arrays, which end unchanged. -/
theorem run : θ_run defs (onTc (τ := τ) (main (F := Ideal))) ⟨m, fun _ => 0, ρ⟩ (fun r => ∀ c : Dev nD,
      r.2.mem ((c.tc : Thread nD τ).loc main_v14) = (fun _ => Spec.lossK (arg0 m c) (arg1 m c) (arg2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v14 (Pipeline.mem_restRefs_of main_v14 (by decide) (by decide))).trans (tail_val m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelRun

end
-- ==== Proof.RefLoss.lean ====
/-
  The reference program's result is the masked pairwise-distance loss.

  Each operation of the reference is read at an index given by explicit coordinates (protein b, atoms i and j,
  coordinate d), from the generated per-operation reading lemmas:
    the reshaped target is the coordinate array, the reshaped and converted mask the real mask,
    the product of its two broadcasts the pair mask, the sum of squares over the three coordinates the squared
    norm, the batched contraction the inner product, and the clamped polarization expression the squared distance;
    the two guarded selections around the square root leave the square root of the clamped squared distance,
    since a nonnegative extended real that is not positive is zero and the square root of zero is zero.
  The two total sums from a zero initial value are triple sums over protein and atom pair, and the result is the
  quotient by the pair count of the mean squared error times the pair-mask sum.
-/
import proofs.«135044_j34926674051539_2_alg».proof.Proof.Gen.ReferenceIdeal.Read
import proofs.«135044_j34926674051539_2_alg».proof.Proof.Spec
import proofs.«135044_j34926674051539_2_alg».proof.Proof.LibSumIdx

noncomputable section

open scoped BigOperators

namespace Cert.RefLoss

open Cert.ReferenceIdeal Cert.ReferenceIdeal.Gen Cert.ReferenceIdeal.Read Idealize.ShloMosaic Idealize.ShloMosaic.ValueIdx

/-! ## Pointwise facts on the extended reals -/

/-- The float zero is the extended real zero. -/
theorem zero_eq : Cert.Spec.zero = 0 := Ideal.ofBits_zero_f32

/-- The square root of zero is zero. -/
theorem sqrt_zero : Ideal.sqrt 0 = 0 := by
  rw [← EReal.coe_zero, Ideal.sqrt_coe]; simp

/-- The two guarded selections around the square root are the square root itself on a nonnegative argument:
    where the argument is positive both selections pass it through; where it is not, it is zero, and so is its root. -/
theorem where_sqrt (y one : EReal) (hy : 0 ≤ y) :
    Scalar.select (Ideal.cmp .ogt y 0) (Ideal.sqrt (Scalar.select (Ideal.cmp .ogt y 0) y one)) 0 = Ideal.sqrt y := by
  by_cases h : 0 < y
  · have hc : Ideal.cmp .ogt y 0 = 1#1 := by simp [Ideal.cmp, h]
    rw [hc, select_one, select_one]
  · have h0 : y = 0 := le_antisymm (not_lt.mp h) hy
    have hc : Ideal.cmp .ogt y 0 = 0#1 := by simp [Ideal.cmp, h]
    rw [hc, select_zero, h0, sqrt_zero]

variable (x0 : S16x1536x1536.Idx → EReal) (x1 : S24576x3.Idx → EReal) (x2 : S24576x1.Idx → BitVec 32)

/-- The reshaped target at protein b, atom a, coordinate d. -/
theorem t_apply (b : Fin 16) (a : Fin 1536) (d : Fin 3) :
    val_main_v0 (F := Ideal) x1 (ix3 b a d) = Cert.Spec.coord x1 b a d := by
  rw [val_main_v0_apply]
  unfold Cert.Spec.coord
  refine congrArg x1 (funext fun c => Fin.ext ?_)
  have hb := b.isLt; have ha := a.isLt; have hd := d.isLt
  match c with
  | ⟨0, _⟩ => show ((b.val * 1536 + a.val) * 3 + d.val) / 3 = b.val * 1536 + a.val; omega
  | ⟨1, _⟩ => show ((b.val * 1536 + a.val) * 3 + d.val) % 3 = d.val; omega

/-- The reshaped mask, converted to a float, at protein b, atom a. -/
theorem m_apply (b : Fin 16) (a : Fin 1536) :
    val_main_v2 (F := Ideal) x2 (ix2 b a) = Cert.Spec.msk x2 b a := by
  rw [val_main_v2_apply, val_main_v1_apply]
  unfold Cert.Spec.msk
  have e : idx_main_v1 (ix2 b a) = ix2 (Cert.Spec.atom b a) (0 : Fin 1) := funext fun c => Fin.ext (by
    match c with
    | ⟨0, _⟩ => show (b.val * 1536 + a.val) / 1 = b.val * 1536 + a.val; omega
    | ⟨1, _⟩ => rfl)
  rw [e]
  rfl

/-- The pair mask at protein b, atoms i and j. -/
theorem pm_apply (b : Fin 16) (i j : Fin 1536) :
    val_main_v7 (F := Ideal) x2 (ix3 b i j) = Cert.Spec.pm x2 b i j := by
  rw [val_main_v7_apply, val_main_v5_apply, val_main_v3_apply, val_main_v6_apply, val_main_v4_apply]
  have e1 : idx_main_v3 (idx_main_v5 (ix3 b i j)) = ix2 b i := funext fun c => Fin.ext (by
    match c with
    | ⟨0, _⟩ => rfl
    | ⟨1, _⟩ => rfl)
  have e2 : idx_main_v4 (idx_main_v6 (ix3 b i j)) = ix2 b j := funext fun c => Fin.ext (by
    match c with
    | ⟨0, _⟩ => rfl
    | ⟨1, _⟩ => rfl)
  rw [e1, e2, m_apply, m_apply]
  rfl

/-- The squared norm of atom a of protein b: the float sum from zero over the three coordinates. -/
theorem sq_apply (b : Fin 16) (a : Fin 1536) :
    val_main_v9 (F := Ideal) x1 (ix2 b a) = Cert.Spec.sqn x1 b a := by
  rw [val_main_v9_apply, val_main_cst_apply, Ideal.ofBits_def, Ideal.ofBits_zero_f32, zero_add]
  unfold Cert.Spec.sqn
  refine Finset.sum_congr rfl fun k _ => ?_
  have e : idx_main_v9 (ix2 b a) k = ix3 b a k := funext fun c => Fin.ext (by
    match c with
    | ⟨0, _⟩ => rfl
    | ⟨1, _⟩ => rfl
    | ⟨2, _⟩ => rfl)
  rw [e, val_main_v8_apply, t_apply]
  rfl

/-- The inner product of atoms i and j of protein b. -/
theorem gram_apply (b : Fin 16) (i j : Fin 1536) :
    val_main_v10 (F := Ideal) x1 (ix3 b i j) = Cert.Spec.gram x1 b i j := by
  rw [val_main_v10_apply]
  unfold Cert.Spec.gram
  refine Finset.sum_congr rfl fun k _ => ?_
  have el : lidx_main_v10 (ix3 b i j) k = ix3 b i k := funext fun c => Fin.ext (by
    match c with
    | ⟨0, _⟩ => rfl
    | ⟨1, _⟩ => rfl
    | ⟨2, _⟩ => rfl)
  have er : ridx_main_v10 (ix3 b i j) k = ix3 b j k := funext fun c => Fin.ext (by
    match c with
    | ⟨0, _⟩ => rfl
    | ⟨1, _⟩ => rfl
    | ⟨2, _⟩ => rfl)
  rw [el, er, t_apply, t_apply]

/-- The squared distance before clamping. -/
theorem d2_apply (b : Fin 16) (i j : Fin 1536) :
    val_main_v18 (F := Ideal) x1 (ix3 b i j) = Cert.Spec.d2 x1 b i j := by
  rw [val_main_v18_apply, val_main_v15_apply, val_main_v13_apply, val_main_v11_apply, val_main_v14_apply,
    val_main_v12_apply, val_main_v17_apply, val_main_v16_apply, val_main_cst_0_apply, gram_apply]
  have e1 : idx_main_v11 (idx_main_v13 (ix3 b i j)) = ix2 b i := funext fun c => Fin.ext (by
    match c with
    | ⟨0, _⟩ => rfl
    | ⟨1, _⟩ => rfl)
  have e2 : idx_main_v12 (idx_main_v14 (ix3 b i j)) = ix2 b j := funext fun c => Fin.ext (by
    match c with
    | ⟨0, _⟩ => rfl
    | ⟨1, _⟩ => rfl)
  rw [e1, e2, sq_apply, sq_apply]
  rfl

/-- The clamped squared distance. -/
theorem d2c_apply (b : Fin 16) (i j : Fin 1536) :
    val_main_v20 (F := Ideal) x1 (ix3 b i j) = max (Cert.Spec.d2 x1 b i j) 0 := by
  rw [val_main_v20_apply, val_main_v19_apply, val_main_cst_1_apply, d2_apply, Ideal.ofBits_def,
    Ideal.ofBits_zero_f32]
  rfl

/-- The distance: the guarded square root of the clamped squared distance is its square root. -/
theorem dist_apply (b : Fin 16) (i j : Fin 1536) :
    val_main_v27 (F := Ideal) x1 (ix3 b i j) = Cert.Spec.dist x1 b i j := by
  rw [val_main_v27_apply, val_main_v25_apply, val_main_v26_apply, val_main_v23_apply, val_main_v22_apply,
    val_main_v24_apply, val_main_v21_apply, val_main_call1_v1_apply, val_main_call1_v0_apply,
    val_main_call0_v1_apply, val_main_call0_v0_apply,
    val_main_cst_4_apply, val_main_cst_2_apply, val_main_cst_5_apply, val_main_cst_3_apply, d2c_apply]
  simp only [Ideal.ofBits_def, Ideal.ofBits_zero_f32, Ideal.cmpf_def, Ideal.hostUnary_sqrt_def]
  rw [where_sqrt _ _ (le_max_right _ _)]
  unfold Cert.Spec.dist
  rw [zero_eq]

/-- The masked squared error of one pair. -/
theorem err_apply (b : Fin 16) (i j : Fin 1536) :
    val_main_v31 (F := Ideal) x0 x1 x2 (ix3 b i j) = Cert.Spec.errR x0 x1 x2 b i j := by
  rw [val_main_v31_apply, val_main_v30_apply, val_main_v28_apply, val_main_v29_apply, pm_apply, dist_apply]
  rfl

/-- The reference's result is the loss: both total sums are triple sums over protein and atom pair. -/
theorem ref_loss (i : S_.Idx) :
    val_main_v36 (F := Ideal) x0 x1 x2 i = Cert.Spec.lossR x0 x1 x2 := by
  rw [val_main_v36_apply, val_main_v35_apply, val_main_v33_apply, val_main_v32_apply, val_main_v34_apply,
    val_main_cst_9_apply, val_main_cst_7_apply, val_main_cst_6_apply, val_main_cst_8_apply]
  simp only [Ideal.ofBits_def, Ideal.ofBits_zero_f32, zero_add, Ideal.hostDivf_def, Ideal.mulf_def]
  rw [Cert.LibSumIdx.sum_idx3, Cert.LibSumIdx.sum_idx3]
  unfold Cert.Spec.lossR Cert.Spec.count
  simp only [err_apply, pm_apply]

end Cert.RefLoss

end
-- ==== Proof.FiniteInputs.lean ====
/-
  The finiteness precondition read back: where the printed predicate holds, every element of the predicted
  distance maps and of the atom coordinates is a real number.

  The predicate is the conjunction of two total conjunctions, one per array, of the elementwise test that the
  absolute value of the element is below plus infinity. On the extended reals the absolute value of either
  infinity is plus infinity, so an element that passes the test is a real.
-/
import proofs.«135044_j34926674051539_2_alg».proof.Pre_finite_inputs
import proofs.«135044_j34926674051539_2_alg».proof.Proof.Gen.Pre_finite_inputs
import Idealize.ShloMosaic.Lib.ReduceAll
import Idealize.ShloMosaic.PureOps.Ideal.Laws

noncomputable section

namespace Cert.FiniteInputs

open Idealize.ShloMosaic Cert.Pre_finite_inputs

/-- The scalar shape has one index. -/
instance : Subsingleton S_.Idx := ⟨fun _ _ => funext fun d => d.elim0⟩

/-- The float word with all exponent bits set and no fraction bits is plus infinity. -/
theorem inf_eq : Ideal.ofBits .f32 0x7F800000#32 = ⊤ := by simp [Ideal.ofBits, Ideal.ieee]

/-- An extended real whose absolute value compares below plus infinity is a real. -/
theorem real_of_cmp (x : EReal)
    (h : Ideal.cmp .olt (max x (-x)) (Ideal.ofBits .f32 0x7F800000#32) = 1#1) : ∃ r : ℝ, x = (r : EReal) := by
  rw [inf_eq] at h
  induction x using EReal.rec with
  | bot => simp [Ideal.cmp] at h
  | top => simp [Ideal.cmp] at h
  | coe r => exact ⟨r, rfl⟩

/-- Where the precondition holds, both float arrays hold reals everywhere. -/
theorem both_real [Facts] (x0 : FVec Ideal S16x1536x1536 .f32) (x1 : FVec Ideal S24576x3 .f32)
    (x2 : IVec S24576x1 32) (x3 : IVec S8192 32)
    (h : fn (F := Ideal) x0 x1 x2 x3 = fun _ => 1#1) :
    (∀ j, ∃ r : ℝ, x0 j = (r : EReal)) ∧ (∀ j, ∃ r : ℝ, x1 j = (r : EReal)) := by
  have h0 := congrFun h (fun a => a.elim0)
  dsimp only [fn] at h0
  obtain ⟨ha, hb⟩ := IntOp.andi_eq_one.1 h0
  refine ⟨fun j => ?_, fun j => ?_⟩
  · exact real_of_cmp _ (Host.reduce_andi_all _ _ _ _ _ ha j)
  · exact real_of_cmp _ (Host.reduce_andi_all _ _ _ _ _ hb j)

/-- Where the precondition holds, every predicted distance is a real. -/
theorem inputs_real [Facts] (x0 : FVec Ideal S16x1536x1536 .f32) (x1 : FVec Ideal S24576x3 .f32)
    (x2 : IVec S24576x1 32) (x3 : IVec S8192 32)
    (h : fn (F := Ideal) x0 x1 x2 x3 = fun _ => 1#1) : ∀ j, ∃ r : ℝ, x0 j = (r : EReal) :=
  (both_real x0 x1 x2 x3 h).1

/-- Where the precondition holds, every atom coordinate is a real. -/
theorem target_real [Facts] (x0 : FVec Ideal S16x1536x1536 .f32) (x1 : FVec Ideal S24576x3 .f32)
    (x2 : IVec S24576x1 32) (x3 : IVec S8192 32)
    (h : fn (F := Ideal) x0 x1 x2 x3 = fun _ => 1#1) : ∀ j, ∃ r : ℝ, x1 j = (r : EReal) :=
  (both_real x0 x1 x2 x3 h).2

end Cert.FiniteInputs

end
-- ==== Proof.Bridge.lean ====
/-
  The three spellings of the masked pairwise-distance loss agree.

  The extended reals are not a semiring: a product does not distribute over a sum of opposite infinities. What is used
  here is only that addition and multiplication are commutative and associative, that a real factor distributes over
  the difference of a real and an arbitrary extended real, and that casts of reals commute with finite sums and
  products, so that identities among the real masks are proved over the reals.
-/
import proofs.«135044_j34926674051539_2_alg».proof.Proof.Spec
import proofs.«135044_j34926674051539_2_alg».proof.Proof.LibSumIdx
import Idealize.ShloMosaic.PureOps.Ideal.Laws

noncomputable section

open scoped BigOperators

namespace Cert.Bridge

open Idealize.ShloMosaic Idealize.ShloMosaic.ValueIdx

/-! ## Pointwise facts -/

/-- The float zero is the extended real zero. -/
theorem zero_eq : Cert.Spec.zero = 0 := Ideal.ofBits_zero_f32

/-- The pair count is the real 16 · 1536 · 1536. -/
theorem count_eq : Cert.Spec.count = ((37748736 : ℝ) : EReal) := by
  unfold Cert.Spec.count
  simp [Ideal.ofBits, Ideal.ieee, -EReal.coe_mul]
  norm_num

/-- A real factor distributes over the difference of a real and any extended real. -/
theorem coe_mul_sub (x a : ℝ) (b : EReal) :
    (x : EReal) * ((a : EReal) - b) = (x : EReal) * (a : EReal) - (x : EReal) * b := by
  induction b using EReal.rec with
  | coe b => rw [← EReal.coe_sub, ← EReal.coe_mul, ← EReal.coe_mul, ← EReal.coe_mul, ← EReal.coe_sub, mul_sub]
  | top =>
    rw [EReal.sub_top, ← EReal.coe_mul]
    rcases lt_trichotomy x 0 with hx | hx | hx
    · rw [EReal.coe_mul_bot_of_neg hx, EReal.coe_mul_top_of_neg hx, EReal.coe_sub_bot]
    · rw [hx]; simp
    · rw [EReal.coe_mul_bot_of_pos hx, EReal.coe_mul_top_of_pos hx, EReal.sub_top]
  | bot =>
    rw [EReal.coe_sub_bot, ← EReal.coe_mul]
    rcases lt_trichotomy x 0 with hx | hx | hx
    · rw [EReal.coe_mul_top_of_neg hx, EReal.coe_mul_bot_of_neg hx, EReal.sub_top]
    · rw [hx]; simp
    · rw [EReal.coe_mul_top_of_pos hx, EReal.coe_mul_bot_of_pos hx, EReal.coe_sub_bot]

/-- The cast of a finite sum of reals is the sum of the casts. -/
theorem coe_sum {ι : Type*} (s : Finset ι) (f : ι → ℝ) :
    ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- A sum over the 1536 atoms is the sum over the three row tiles of the sums over each tile's 512 atoms. -/
theorem sum_rows {M : Type*} [AddCommMonoid M] (f : Fin 1536 → M) :
    ∑ i, f i = ∑ k : Fin 3, ∑ r : Fin 512, f (Cert.Spec.tileRow k r) :=
  (Cert.LibSumIdx.sum_tiles (m := 3) (n := 512) f).trans
    (Finset.sum_congr rfl fun k _ => Finset.sum_congr rfl fun r _ => congrArg f (Fin.ext rfl))

variable (x0 : Cert.Spec.SInp.Idx → EReal) (x1 : Cert.Spec.STgt.Idx → EReal) (x2 : Cert.Spec.SMsk.Idx → BitVec 32)

/-- The mask of an atom as a real. -/
def mskR (b : Fin 16) (a : Fin 1536) : ℝ := ((x2 (ix2 (Cert.Spec.atom b a) (0 : Fin 1))).toInt : ℝ)

/-- The mask is the cast of a real. -/
theorem msk_eq (b : Fin 16) (a : Fin 1536) : Cert.Spec.msk x2 b a = ((mskR x2 b a : ℝ) : EReal) := rfl

/-! ## The mask applied to the difference or to each of its terms -/

/-- Where the predicted distance is a real, the mask distributes over the difference. -/
theorem errR_eq_err (h0 : ∀ j, ∃ r : ℝ, x0 j = (r : EReal)) (b : Fin 16) (i j : Fin 1536) :
    Cert.Spec.errR x0 x1 x2 b i j = Cert.Spec.err x0 x1 x2 b i j := by
  obtain ⟨r, hr⟩ := h0 (ix3 b i j)
  have hpm : Cert.Spec.pm x2 b i j = ((mskR x2 b i * mskR x2 b j : ℝ) : EReal) := by
    unfold Cert.Spec.pm
    rw [msk_eq, msk_eq, EReal.coe_mul]
  unfold Cert.Spec.errR Cert.Spec.err
  rw [hr, hpm, coe_mul_sub]

/-- Dividing by the pair count after or before the product with the pair-mask sum. -/
theorem div_mul_div (S P : EReal) :
    Ideal.div (Ideal.div S Cert.Spec.count * P) Cert.Spec.count
      = Ideal.div S Cert.Spec.count * Ideal.div P Cert.Spec.count := by
  have hN : (37748736 : ℝ) ≠ 0 := by norm_num
  rw [count_eq, Ideal.div_coe hN, Ideal.div_coe hN, Ideal.div_coe hN, mul_assoc]

/-- (A) With real predicted distances, the loss with the mask distributed is the loss. -/
theorem lossR_eq_loss (h0 : ∀ j, ∃ r : ℝ, x0 j = (r : EReal)) :
    Cert.Spec.lossR x0 x1 x2 = Cert.Spec.loss x0 x1 x2 := by
  unfold Cert.Spec.lossR Cert.Spec.loss
  rw [div_mul_div]
  simp only [errR_eq_err x0 x1 x2 h0]

/-! ## The loss accumulated tile by tile -/

/-- A protein's squared-error total accumulated over its three row tiles is its double sum over atom pairs. -/
theorem accSqS_eq (b : Fin 16) :
    Cert.Spec.accSqS x0 x1 x2 b = ∑ i : Fin 1536, ∑ j : Fin 1536, Cert.Spec.err x0 x1 x2 b i j := by
  unfold Cert.Spec.accSqS
  rw [zero_eq, zero_add, ← Fin.sum_univ_three (fun k => Cert.Spec.tileSqS x0 x1 x2 b k)]
  unfold Cert.Spec.tileSqS
  exact (sum_rows (fun i => ∑ q : Fin 1536, Cert.Spec.err x0 x1 x2 b i q)).symm

/-- A protein's pair-mask total accumulated over its three row tiles, each tile's sum factored as the tile's mask sum
    times the protein's mask sum, is its double sum of pair masks: an identity of real sums. -/
theorem accPmS_eq (b : Fin 16) :
    Cert.Spec.accPmS x2 b = ∑ i : Fin 1536, ∑ j : Fin 1536, Cert.Spec.pm x2 b i j := by
  unfold Cert.Spec.accPmS
  rw [zero_eq, zero_add, ← Fin.sum_univ_three (fun k => Cert.Spec.tilePmS x2 b k)]
  unfold Cert.Spec.tilePmS Cert.Spec.pm
  simp only [msk_eq, ← coe_sum, ← EReal.coe_mul]
  refine congrArg (fun t : ℝ => (t : EReal)) ?_
  rw [← Finset.sum_mul, ← sum_rows (fun i => mskR x2 b i), Finset.sum_mul_sum]

/-- (B) The loss accumulated tile by tile and protein by protein is the loss. -/
theorem lossK_eq_loss : Cert.Spec.lossK x0 x1 x2 = Cert.Spec.loss x0 x1 x2 := by
  unfold Cert.Spec.lossK Cert.Spec.loss
  rw [zero_eq, zero_add, zero_add]
  simp only [accSqS_eq, accPmS_eq]

end Cert.Bridge

end
-- ==== Proof.lean ====
/-
  The certificate of the masked pairwise-distance loss kernel against its reference.

  Both programs compute, for 16 proteins of 1536 atoms each, the mean over all atom pairs of the squared masked
  difference between a predicted distance map and the atoms' pairwise distances, times the mean pair mask. The kernel
  walks each protein in three row tiles of 512 atoms, accumulating the tile's sum of squared errors and, for the pair
  masks, the tile's mask sum times the protein's mask sum; the reference forms whole arrays and sums them once.

  Over the extended reals the two agree where the predicted distances are finite: the reference applies the mask to
  each term of the difference and the kernel to the difference, which is the same when mask and prediction are real
  (whatever the distance); the kernel's factored pair-mask sums are an identity of real sums; every other difference
  is an order of summation or of the two divisions by the pair count, and the guarded square root of the reference is
  the plain square root on a clamped argument.
-/
import proofs.«135044_j34926674051539_2_alg».proof.Defs
import proofs.«135044_j34926674051539_2_alg».proof.Proof.Gen.Kernel
import proofs.«135044_j34926674051539_2_alg».proof.Proof.Gen.Kernel.Frame
import proofs.«135044_j34926674051539_2_alg».proof.Proof.Gen.KernelIdeal
import proofs.«135044_j34926674051539_2_alg».proof.Proof.Gen.KernelIdeal.Frame
import proofs.«135044_j34926674051539_2_alg».proof.Proof.Gen.ReferenceIdeal
import proofs.«135044_j34926674051539_2_alg».proof.Proof.Gen.Pre_finite_inputs
import proofs.«135044_j34926674051539_2_alg».proof.Proof.Gen.ReferenceIdeal.Run
import proofs.«135044_j34926674051539_2_alg».proof.Proof.Gen.ReferenceIdeal.Read
import proofs.«135044_j34926674051539_2_alg».proof.Proof.KernelRun
import proofs.«135044_j34926674051539_2_alg».proof.Proof.RefLoss
import proofs.«135044_j34926674051539_2_alg».proof.Proof.FiniteInputs
import proofs.«135044_j34926674051539_2_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the loss of the same arguments: the kernel's tile-by-tile form and the reference's form with
    the mask distributed are both the loss, the second because the predicted distances are finite. -/
theorem algebraic : Cert.algebraic_KernelIdeal_ReferenceIdeal := by
  intro m ρ m' ρ' hpre hagree
  refine ⟨fun c => (fun _ => Cert.Spec.lossK (Cert.KernelBlocks.arg0 m c) (Cert.KernelBlocks.arg1 m c) (Cert.KernelBlocks.arg2 m c)),
    Cert.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2.1, (hagree c).2.2.1]
  funext i
  have hreal := Cert.FiniteInputs.inputs_real _ _ _ _ (hpre c)
  exact (Cert.RefLoss.ref_loss _ _ _ i).trans
    ((Cert.Bridge.lossR_eq_loss _ _ _ hreal).trans (Cert.Bridge.lossK_eq_loss _ _ _).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
